-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x16x3 : Shape := ⟨3, ![20000, 16, 3]⟩
abbrev S20000x16x16 : Shape := ⟨3, ![20000, 16, 16]⟩
abbrev S2x3x4 : Shape := ⟨3, ![2, 3, 4]⟩
abbrev S_ : Shape := ⟨0, ![]⟩

class Facts : Prop where
  bcast_S_S20000x16x3 : S_.BroadcastsInDim S20000x16x3 (![] : Fin 0 → Fin S20000x16x3.rank)
  reducesTo_S20000x16x3_S_d0_1_2 : S20000x16x3.ReducesTo [0, 1, 2] S_
  h_S_ : 0 < S_.numel
  bcast_S_S20000x16x16 : S_.BroadcastsInDim S20000x16x16 (![] : Fin 0 → Fin S20000x16x16.rank)
  reducesTo_S20000x16x16_S_d0_1_2 : S20000x16x16.ReducesTo [0, 1, 2] S_
  bcast_S_S2x3x4 : S_.BroadcastsInDim S2x3x4 (![] : Fin 0 → Fin S2x3x4.rank)
  reducesTo_S2x3x4_S_d0_1_2 : S2x3x4.ReducesTo [0, 1, 2] S_

variable [Facts]

def fn {F : FTy → Type} [FloatOps F] (main_arg0 : FVec F S20000x16x3 .f32) (main_arg1 : FVec F S20000x16x16 .f32) (main_arg2 : FVec F S2x3x4 .f32) : IVec S_ 1 :=
  let main_v0 : FVec F S20000x16x3 .f32 := Host.absf main_arg0
  let main_cst : FVec F S_ .f32 := constant S_ .f32 0x7F800000#32
  let main_v1 : FVec F S20000x16x3 .f32 := broadcastInDim S20000x16x3 ![] bcast_S_S20000x16x3 main_cst
  let main_v2 : IVec S20000x16x3 1 := cmpf .olt main_v0 main_v1
  let main_c : IVec S_ 1 := constantI S_ 1 1#1
  let main_v3 : IVec S_ 1 := (fun x v => Host.reduce IntOp.andi x v reducesTo_S20000x16x3_S_d0_1_2 h_S_) main_v2 main_c
  let main_v4 : FVec F S20000x16x16 .f32 := Host.absf main_arg1
  let main_cst_0 : FVec F S_ .f32 := constant S_ .f32 0x7F800000#32
  let main_v5 : FVec F S20000x16x16 .f32 := broadcastInDim S20000x16x16 ![] bcast_S_S20000x16x16 main_cst_0
  let main_v6 : IVec S20000x16x16 1 := cmpf .olt main_v4 main_v5
  let main_c_1 : IVec S_ 1 := constantI S_ 1 1#1
  let main_v7 : IVec S_ 1 := (fun x v => Host.reduce IntOp.andi x v reducesTo_S20000x16x16_S_d0_1_2 h_S_) main_v6 main_c_1
  let main_v8 : IVec S_ 1 := andi main_v3 main_v7
  let main_v9 : FVec F S2x3x4 .f32 := Host.absf main_arg2
  let main_cst_2 : FVec F S_ .f32 := constant S_ .f32 0x7F800000#32
  let main_v10 : FVec F S2x3x4 .f32 := broadcastInDim S2x3x4 ![] bcast_S_S2x3x4 main_cst_2
  let main_v11 : IVec S2x3x4 1 := cmpf .olt main_v9 main_v10
  let main_c_3 : IVec S_ 1 := constantI S_ 1 1#1
  let main_v12 : IVec S_ 1 := (fun x v => Host.reduce IntOp.andi x v reducesTo_S2x3x4_S_d0_1_2 h_S_) main_v11 main_c_3
  let main_v13 : IVec S_ 1 := andi main_v8 main_v12
  main_v13
-- ==== Kernel.lean ====
abbrev S20000x16x3 : Shape := ⟨3, ![20000, 16, 3]⟩
abbrev S20000x16x16 : Shape := ⟨3, ![20000, 16, 16]⟩
abbrev S2x3x4 : Shape := ⟨3, ![2, 3, 4]⟩
abbrev S20000x16x12 : Shape := ⟨3, ![20000, 16, 12]⟩
abbrev S250x16x3 : Shape := ⟨3, ![250, 16, 3]⟩
abbrev S250x16x16 : Shape := ⟨3, ![250, 16, 16]⟩
abbrev S250x16x12 : Shape := ⟨3, ![250, 16, 12]⟩
abbrev S250x16 : Shape := ⟨2, ![250, 16]⟩
abbrev S250x1x16 : Shape := ⟨3, ![250, 1, 16]⟩
abbrev S250x16x1 : Shape := ⟨3, ![250, 16, 1]⟩
abbrev S250x1x1 : Shape := ⟨3, ![250, 1, 1]⟩
abbrev S250x1 : Shape := ⟨2, ![250, 1]⟩
abbrev S1x1x1 : Shape := ⟨3, ![1, 1, 1]⟩
abbrev S250 : Shape := ⟨1, ![250]⟩

abbrev nBuf : Space → Nat
  | .hbm => 4
  | .vmem => 7
  | .smem => 0
  | _ => 0

abbrev bufTy : (tb : Table) → Fin (tcTables nBuf tb) → BufTy
  | .hbm, ⟨0, _⟩ => ⟨S20000x16x3, .f32⟩
  | .hbm, ⟨1, _⟩ => ⟨S20000x16x16, .f32⟩
  | .hbm, ⟨2, _⟩ => ⟨S2x3x4, .f32⟩
  | .hbm, ⟨3, _⟩ => ⟨S20000x16x12, .f32⟩
  | .local _ .vmem, ⟨0, _⟩ => ⟨S250x16x3, .f32⟩
  | .local _ .vmem, ⟨1, _⟩ => ⟨S250x16x3, .f32⟩
  | .local _ .vmem, ⟨2, _⟩ => ⟨S250x16x16, .f32⟩
  | .local _ .vmem, ⟨3, _⟩ => ⟨S250x16x16, .f32⟩
  | .local _ .vmem, ⟨4, _⟩ => ⟨S2x3x4, .f32⟩
  | .local _ .vmem, ⟨5, _⟩ => ⟨S250x16x12, .f32⟩
  | .local _ .vmem, ⟨6, _⟩ => ⟨S250x16x12, .f32⟩
  | _, _ => ⟨S20000x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S250x16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S250x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x3x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S250x16x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S250x16x3_S250x16x3_0_0_0 : ∀ a, (![0, 0, 0] : Fin 3 → Nat) a + S250x16x3.size a ≤ S250x16x3.size a
  h_S250x16x3 : 0 < S250x16x3.numel
  inb_S250x16x16_S250x16x16_0_0_0 : ∀ a, (![0, 0, 0] : Fin 3 → Nat) a + S250x16x16.size a ≤ S250x16x16.size a
  h_S250x16x16 : 0 < S250x16x16.numel
  inb_S2x3x4_S2x3x4_0_0_0 : ∀ a, (![0, 0, 0] : Fin 3 → Nat) a + S2x3x4.size a ≤ S2x3x4.size a
  h_S2x3x4 : 0 < S2x3x4.numel
  reduces_S250x16x16_S250x16 : S250x16x16.Reduces [1] S250x16
  slices_S250x16x16_o0_0_0_S250x1x16 : S250x16x16.Slices ![0, 0, 0] S250x1x16
  shapeCasts_S250x1x16_S250x16 : S250x1x16.ShapeCasts S250x16
  slices_S250x16x3_o0_0_0_S250x16x1 : S250x16x3.Slices ![0, 0, 0] S250x16x1
  shapeCasts_S250x16x1_S250x16 : S250x16x1.ShapeCasts S250x16
  slices_S250x16x3_o0_0_0_S250x1x1 : S250x16x3.Slices ![0, 0, 0] S250x1x1
  shapeCasts_S250x1x1_S250x1 : S250x1x1.ShapeCasts S250x1
  broadcasts_S250x1_S250x16 : S250x1.Broadcasts S250x16
  slices_S2x3x4_o0_0_0_S1x1x1 : S2x3x4.Slices ![0, 0, 0] S1x1x1
  inpos_S1x1x1_p0_0_0 : ∀ a, (![0, 0, 0] : Fin 3 → Nat) a < S1x1x1.size a
  slices_S2x3x4_o1_0_0_S1x1x1 : S2x3x4.Slices ![1, 0, 0] S1x1x1
  reduces_S250x16_S250 : S250x16.Reduces [1] S250
  shapeCasts_S250_S250x1 : S250.ShapeCasts S250x1
  shapeCasts_S250x16_S250x16x1 : S250x16.ShapeCasts S250x16x1
  inb_S250x16x12_S250x16x1_0_0_0 : ∀ a, (![0, 0, 0] : Fin 3 → Nat) a + S250x16x1.size a ≤ S250x16x12.size a
  h_S250x16x1 : 0 < S250x16x1.numel
  slices_S2x3x4_o0_0_1_S1x1x1 : S2x3x4.Slices ![0, 0, 1] S1x1x1
  slices_S2x3x4_o1_0_1_S1x1x1 : S2x3x4.Slices ![1, 0, 1] S1x1x1
  inb_S250x16x12_S250x16x1_0_0_1 : ∀ a, (![0, 0, 1] : Fin 3 → Nat) a + S250x16x1.size a ≤ S250x16x12.size a
  slices_S2x3x4_o0_0_2_S1x1x1 : S2x3x4.Slices ![0, 0, 2] S1x1x1
  slices_S2x3x4_o1_0_2_S1x1x1 : S2x3x4.Slices ![1, 0, 2] S1x1x1
  inb_S250x16x12_S250x16x1_0_0_2 : ∀ a, (![0, 0, 2] : Fin 3 → Nat) a + S250x16x1.size a ≤ S250x16x12.size a
  slices_S2x3x4_o0_0_3_S1x1x1 : S2x3x4.Slices ![0, 0, 3] S1x1x1
  slices_S2x3x4_o1_0_3_S1x1x1 : S2x3x4.Slices ![1, 0, 3] S1x1x1
  inb_S250x16x12_S250x16x1_0_0_3 : ∀ a, (![0, 0, 3] : Fin 3 → Nat) a + S250x16x1.size a ≤ S250x16x12.size a
  slices_S250x16x3_o0_0_1_S250x16x1 : S250x16x3.Slices ![0, 0, 1] S250x16x1
  slices_S250x16x3_o0_0_1_S250x1x1 : S250x16x3.Slices ![0, 0, 1] S250x1x1
  slices_S2x3x4_o0_1_0_S1x1x1 : S2x3x4.Slices ![0, 1, 0] S1x1x1
  slices_S2x3x4_o1_1_0_S1x1x1 : S2x3x4.Slices ![1, 1, 0] S1x1x1
  inb_S250x16x12_S250x16x1_0_0_4 : ∀ a, (![0, 0, 4] : Fin 3 → Nat) a + S250x16x1.size a ≤ S250x16x12.size a
  slices_S2x3x4_o0_1_1_S1x1x1 : S2x3x4.Slices ![0, 1, 1] S1x1x1
  slices_S2x3x4_o1_1_1_S1x1x1 : S2x3x4.Slices ![1, 1, 1] S1x1x1
  inb_S250x16x12_S250x16x1_0_0_5 : ∀ a, (![0, 0, 5] : Fin 3 → Nat) a + S250x16x1.size a ≤ S250x16x12.size a
  slices_S2x3x4_o0_1_2_S1x1x1 : S2x3x4.Slices ![0, 1, 2] S1x1x1
  slices_S2x3x4_o1_1_2_S1x1x1 : S2x3x4.Slices ![1, 1, 2] S1x1x1
  inb_S250x16x12_S250x16x1_0_0_6 : ∀ a, (![0, 0, 6] : Fin 3 → Nat) a + S250x16x1.size a ≤ S250x16x12.size a
  slices_S2x3x4_o0_1_3_S1x1x1 : S2x3x4.Slices ![0, 1, 3] S1x1x1
  slices_S2x3x4_o1_1_3_S1x1x1 : S2x3x4.Slices ![1, 1, 3] S1x1x1
  inb_S250x16x12_S250x16x1_0_0_7 : ∀ a, (![0, 0, 7] : Fin 3 → Nat) a + S250x16x1.size a ≤ S250x16x12.size a
  slices_S250x16x3_o0_0_2_S250x16x1 : S250x16x3.Slices ![0, 0, 2] S250x16x1
  slices_S250x16x3_o0_0_2_S250x1x1 : S250x16x3.Slices ![0, 0, 2] S250x1x1
  slices_S2x3x4_o0_2_0_S1x1x1 : S2x3x4.Slices ![0, 2, 0] S1x1x1
  slices_S2x3x4_o1_2_0_S1x1x1 : S2x3x4.Slices ![1, 2, 0] S1x1x1
  inb_S250x16x12_S250x16x1_0_0_8 : ∀ a, (![0, 0, 8] : Fin 3 → Nat) a + S250x16x1.size a ≤ S250x16x12.size a
  slices_S2x3x4_o0_2_1_S1x1x1 : S2x3x4.Slices ![0, 2, 1] S1x1x1
  slices_S2x3x4_o1_2_1_S1x1x1 : S2x3x4.Slices ![1, 2, 1] S1x1x1
  inb_S250x16x12_S250x16x1_0_0_9 : ∀ a, (![0, 0, 9] : Fin 3 → Nat) a + S250x16x1.size a ≤ S250x16x12.size a
  slices_S2x3x4_o0_2_2_S1x1x1 : S2x3x4.Slices ![0, 2, 2] S1x1x1
  slices_S2x3x4_o1_2_2_S1x1x1 : S2x3x4.Slices ![1, 2, 2] S1x1x1
  inb_S250x16x12_S250x16x1_0_0_10 : ∀ a, (![0, 0, 10] : Fin 3 → Nat) a + S250x16x1.size a ≤ S250x16x12.size a
  slices_S2x3x4_o0_2_3_S1x1x1 : S2x3x4.Slices ![0, 2, 3] S1x1x1
  slices_S2x3x4_o1_2_3_S1x1x1 : S2x3x4.Slices ![1, 2, 3] S1x1x1
  inb_S250x16x12_S250x16x1_0_0_11 : ∀ a, (![0, 0, 11] : Fin 3 → Nat) a + S250x16x1.size a ≤ S250x16x12.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S250x16x3.size a ≤ S20000x16x3.size a
  hwx0_0 : ∀ i : grid0.Coords, EltTy.bits .f32 = 32 ∨ (Rect.block (s := S20000x16x3) S250x16x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S250x16x16.size a ≤ S20000x16x16.size a
  hwx0_1 : ∀ i : grid0.Coords, EltTy.bits .f32 = 32 ∨ (Rect.block (s := S20000x16x16) S250x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x3x4.size a ≤ S2x3x4.size a
  hwx0_2 : ∀ i : grid0.Coords, EltTy.bits .f32 = 32 ∨ (Rect.block (s := S2x3x4) S2x3x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S250x16x12.size a ≤ S20000x16x12.size a
  hwx0_3 : ∀ i : grid0.Coords, EltTy.bits .f32 = 32 ∨ (Rect.block (s := S20000x16x12) S250x16x12.size (cc0_transform_3 i) (hinb0_3 i)).WholeWords (EltTy.packing .f32)

variable [Facts₀]

abbrev win0_0 : Pipeline.Window sig grid0 :=
  Pipeline.Window.ofSpec (Memref.whole main_arg0) S250x16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S250x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x3x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S250x16x12.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S20000x16x3 : Shape := ⟨3, ![20000, 16, 3]⟩
abbrev S20000x16x16 : Shape := ⟨3, ![20000, 16, 16]⟩
abbrev S2x3x4 : Shape := ⟨3, ![2, 3, 4]⟩
abbrev S20000x1x3 : Shape := ⟨3, ![20000, 1, 3]⟩
abbrev S20000x16x3x1 : Shape := ⟨4, ![20000, 16, 3, 1]⟩
abbrev S1x3x4 : Shape := ⟨3, ![1, 3, 4]⟩
abbrev S3x4 : Shape := ⟨2, ![3, 4]⟩
abbrev S1x1x3x4 : Shape := ⟨4, ![1, 1, 3, 4]⟩
abbrev S20000x16x3x4 : Shape := ⟨4, ![20000, 16, 3, 4]⟩
abbrev S_ : Shape := ⟨0, ![]⟩
abbrev S20000x1x16 : Shape := ⟨3, ![20000, 1, 16]⟩
abbrev S20000x1x16x1x1 : Shape := ⟨5, ![20000, 1, 16, 1, 1]⟩
abbrev S20000x16x1x3x4 : Shape := ⟨5, ![20000, 16, 1, 3, 4]⟩
abbrev S20000x16x16x3x4 : Shape := ⟨5, ![20000, 16, 16, 3, 4]⟩
abbrev S20000x16x16x1x1 : Shape := ⟨5, ![20000, 16, 16, 1, 1]⟩
abbrev S20000x16x12 : Shape := ⟨3, ![20000, 16, 12]⟩

abbrev nBuf : Space → Nat
  | .hbm => 41
  | .vmem => 0
  | .smem => 0
  | _ => 0

abbrev bufTy : (tb : Table) → Fin (tcTables nBuf tb) → BufTy
  | .hbm, ⟨0, _⟩ => ⟨S20000x16x3, .f32⟩
  | .hbm, ⟨1, _⟩ => ⟨S20000x16x16, .f32⟩
  | .hbm, ⟨2, _⟩ => ⟨S2x3x4, .f32⟩
  | .hbm, ⟨3, _⟩ => ⟨S20000x1x3, .f32⟩
  | .hbm, ⟨4, _⟩ => ⟨S20000x16x3, .f32⟩
  | .hbm, ⟨5, _⟩ => ⟨S20000x16x3, .f32⟩
  | .hbm, ⟨6, _⟩ => ⟨S20000x16x3, .f32⟩
  | .hbm, ⟨7, _⟩ => ⟨S20000x16x3x1, .f32⟩
  | .hbm, ⟨8, _⟩ => ⟨S1x3x4, .f32⟩
  | .hbm, ⟨9, _⟩ => ⟨S3x4, .f32⟩
  | .hbm, ⟨10, _⟩ => ⟨S1x1x3x4, .f32⟩
  | .hbm, ⟨11, _⟩ => ⟨S20000x16x3x4, .f32⟩
  | .hbm, ⟨12, _⟩ => ⟨S20000x16x3x4, .f32⟩
  | .hbm, ⟨13, _⟩ => ⟨S20000x16x3x4, .f32⟩
  | .hbm, ⟨14, _⟩ => ⟨S20000x16x3x4, .f32⟩
  | .hbm, ⟨15, _⟩ => ⟨S20000x16x3x1, .f32⟩
  | .hbm, ⟨16, _⟩ => ⟨S1x3x4, .f32⟩
  | .hbm, ⟨17, _⟩ => ⟨S3x4, .f32⟩
  | .hbm, ⟨18, _⟩ => ⟨S1x1x3x4, .f32⟩
  | .hbm, ⟨19, _⟩ => ⟨S20000x16x3x4, .f32⟩
  | .hbm, ⟨20, _⟩ => ⟨S20000x16x3x4, .f32⟩
  | .hbm, ⟨21, _⟩ => ⟨S20000x16x3x4, .f32⟩
  | .hbm, ⟨22, _⟩ => ⟨S20000x16x3x4, .f32⟩
  | .hbm, ⟨23, _⟩ => ⟨S20000x16x3x1, .f32⟩
  | .hbm, ⟨24, _⟩ => ⟨S_, .f32⟩
  | .hbm, ⟨25, _⟩ => ⟨S20000x16x3x1, .f32⟩
  | .hbm, ⟨26, _⟩ => ⟨S20000x16x3x1, .i1⟩
  | .hbm, ⟨27, _⟩ => ⟨S20000x16x3x4, .i1⟩
  | .hbm, ⟨28, _⟩ => ⟨S20000x16x3x4, .f32⟩
  | .hbm, ⟨29, _⟩ => ⟨S20000x1x16, .f32⟩
  | .hbm, ⟨30, _⟩ => ⟨S20000x1x16x1x1, .f32⟩
  | .hbm, ⟨31, _⟩ => ⟨S20000x16x1x3x4, .f32⟩
  | .hbm, ⟨32, _⟩ => ⟨S20000x16x16x3x4, .f32⟩
  | .hbm, ⟨33, _⟩ => ⟨S20000x16x16x3x4, .f32⟩
  | .hbm, ⟨34, _⟩ => ⟨S20000x16x16x3x4, .f32⟩
  | .hbm, ⟨35, _⟩ => ⟨S20000x16x16x1x1, .f32⟩
  | .hbm, ⟨36, _⟩ => ⟨S20000x16x16x3x4, .f32⟩
  | .hbm, ⟨37, _⟩ => ⟨S20000x16x16x3x4, .f32⟩
  | .hbm, ⟨38, _⟩ => ⟨S_, .f32⟩
  | .hbm, ⟨39, _⟩ => ⟨S20000x16x3x4, .f32⟩
  | .hbm, ⟨40, _⟩ => ⟨S20000x16x12, .f32⟩
  | _, _ => ⟨S20000x16x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]

class Facts₀ : Prop where
  slices_S20000x16x3_S20000x1x3_0_0_0 : S20000x16x3.Slices ![0, 0, 0] S20000x1x3
  bcast_S20000x1x3_S20000x16x3_0_1_2 : S20000x1x3.BroadcastsInDim S20000x16x3 (![0, 1, 2] : Fin 3 → Fin S20000x16x3.rank)
  bcast_S20000x16x3_S20000x16x3x1_0_1_2 : S20000x16x3.BroadcastsInDim S20000x16x3x1 (![0, 1, 2] : Fin 3 → Fin S20000x16x3x1.rank)
  slices_S2x3x4_S1x3x4_0_0_0 : S2x3x4.Slices ![0, 0, 0] S1x3x4
  shapeCasts_S1x3x4_S3x4 : S1x3x4.ShapeCasts S3x4
  bcast_S3x4_S1x1x3x4_2_3 : S3x4.BroadcastsInDim S1x1x3x4 (![2, 3] : Fin 2 → Fin S1x1x3x4.rank)
  bcast_S20000x16x3x1_S20000x16x3x4_0_1_2_3 : S20000x16x3x1.BroadcastsInDim S20000x16x3x4 (![0, 1, 2, 3] : Fin 4 → Fin S20000x16x3x4.rank)
  bcast_S1x1x3x4_S20000x16x3x4_0_1_2_3 : S1x1x3x4.BroadcastsInDim S20000x16x3x4 (![0, 1, 2, 3] : Fin 4 → Fin S20000x16x3x4.rank)
  slices_S2x3x4_S1x3x4_1_0_0 : S2x3x4.Slices ![1, 0, 0] S1x3x4
  bcast_S_S20000x16x3x1 : S_.BroadcastsInDim S20000x16x3x1 (![] : Fin 0 → Fin S20000x16x3x1.rank)
  slices_S20000x16x16_S20000x1x16_0_0_0 : S20000x16x16.Slices ![0, 0, 0] S20000x1x16
  bcast_S20000x1x16_S20000x1x16x1x1_0_1_2 : S20000x1x16.BroadcastsInDim S20000x1x16x1x1 (![0, 1, 2] : Fin 3 → Fin S20000x1x16x1x1.rank)
  bcast_S20000x16x3x4_S20000x16x1x3x4_0_1_3_4 : S20000x16x3x4.BroadcastsInDim S20000x16x1x3x4 (![0, 1, 3, 4] : Fin 4 → Fin S20000x16x1x3x4.rank)
  bcast_S20000x1x16x1x1_S20000x16x16x3x4_0_1_2_3_4 : S20000x1x16x1x1.BroadcastsInDim S20000x16x16x3x4 (![0, 1, 2, 3, 4] : Fin 5 → Fin S20000x16x16x3x4.rank)
  bcast_S20000x16x1x3x4_S20000x16x16x3x4_0_1_2_3_4 : S20000x16x1x3x4.BroadcastsInDim S20000x16x16x3x4 (![0, 1, 2, 3, 4] : Fin 5 → Fin S20000x16x16x3x4.rank)
  bcast_S20000x16x16_S20000x16x16x1x1_0_1_2 : S20000x16x16.BroadcastsInDim S20000x16x16x1x1 (![0, 1, 2] : Fin 3 → Fin S20000x16x16x1x1.rank)
  bcast_S20000x16x16x1x1_S20000x16x16x3x4_0_1_2_3_4 : S20000x16x16x1x1.BroadcastsInDim S20000x16x16x3x4 (![0, 1, 2, 3, 4] : Fin 5 → Fin S20000x16x16x3x4.rank)
  reducesTo_S20000x16x16x3x4_S20000x16x3x4_d1 : S20000x16x16x3x4.ReducesTo [1] S20000x16x3x4
  h_S_ : 0 < S_.numel
  shapeCasts_S20000x16x3x4_S20000x16x12 : S20000x16x3x4.ShapeCasts S20000x16x12

variable [Facts₀]

class Facts : Prop extends Facts₀ where

variable [Facts]
-- ==== Proof.Spec.lean ====
/-
  The neighbourhood filter of one vertex, as mathematics on the extended reals, and the two arrangements of its sum.

  A vertex has 16 neighbours (neighbour 0 is the vertex itself), each with a position on 3 space axes and 16 features,
  and there are 2 x 3 x 4 learned coefficients. On axis `s` neighbour `n` sits at the offset
  `d = x n s - x 0 s` from the vertex; its weight under filter `j` is `exp (d * d * c)`, with the coefficient `c`
  taken from the first bank when `0 ≤ d` and from the second otherwise. Output column `k = 4 * s + j` of feature `f` is

      sum over n of (fe 0 f * w n - fe n f)                          -- the summed arrangement
    = fe 0 f * (sum over n of w n) - (sum over n of fe n f)          -- the factored arrangement

  The two agree when every entry is a real number (`factored_eq_summed` in the module that proves the law): the
  step is distributivity of a real factor over a finite sum of reals and the splitting of a sum of differences, both
  of which fail in general at the infinities.

  Everything is stated on ONE vertex's data (`Pos`, `Feat`, `Coef`: plain functions of small finite coordinates), so
  that the same row function reads a block of 250 vertices and the whole array of 20000; `posRow` / `featRow` /
  `coefOf` cut a vertex's data out of an array, and `outFactored` / `outSummed` are the whole result arrays.
-/
import Idealize.ShloMosaic.PureOps.Ideal
import Idealize.ShloMosaic.PureOps.Ideal.Laws
import Idealize.ShloMosaic.Lib.ValueIdx

noncomputable section

open scoped BigOperators

namespace Cert.NeighbourFilter

open Idealize.ShloMosaic Idealize.ShloMosaic.ValueIdx

/-- One vertex's neighbour positions: neighbour, space axis. -/
abbrev Pos := Fin 16 → Fin 3 → EReal
/-- One vertex's neighbour features: neighbour, feature. -/
abbrev Feat := Fin 16 → Fin 16 → EReal
/-- The learned coefficients: bank (0 for offsets `≥ 0`, 1 for negative ones), space axis, filter. -/
abbrev Coef := Fin 2 → Fin 3 → Fin 4 → EReal

/-- Neighbour `n`'s offset from the vertex (neighbour 0) on axis `s`. -/
def dist (xs : Pos) (n : Fin 16) (s : Fin 3) : EReal := xs n s - xs 0 s

/-- Neighbour `n`'s weight on axis `s` under filter `j`: `exp (d² · c)`, the coefficient's bank chosen by the offset's sign. -/
def wgt (xs : Pos) (C : Coef) (n : Fin 16) (s : Fin 3) (j : Fin 4) : EReal :=
  if 0 ≤ dist xs n s then Ideal.exp (dist xs n s * dist xs n s * C 0 s j)
  else Ideal.exp (dist xs n s * dist xs n s * C 1 s j)

/-- Output column `k` belongs to space axis `k / 4` … -/
def axisOf (k : Fin 12) : Fin 3 := ⟨k.val / 4, by omega⟩
/-- … and filter `k % 4`. -/
def filtOf (k : Fin 12) : Fin 4 := ⟨k.val % 4, by omega⟩

/-- The factored arrangement: the vertex's own feature times the summed weights, less the summed features. -/
def rowFactored (xs : Pos) (fe : Feat) (C : Coef) (f : Fin 16) (k : Fin 12) : EReal :=
  fe 0 f * (∑ n : Fin 16, wgt xs C n (axisOf k) (filtOf k)) - ∑ n : Fin 16, fe n f

/-- The summed arrangement: the sum over the neighbours of the weighted own feature less the neighbour's feature. -/
def rowSummed (xs : Pos) (fe : Feat) (C : Coef) (f : Fin 16) (k : Fin 12) : EReal :=
  ∑ n : Fin 16, (fe 0 f * wgt xs C n (axisOf k) (filtOf k) - fe n f)

/-! ## Cutting one vertex out of an array of `R` vertices -/

/-- Vertex `v`'s positions in an array of `R` vertices' positions. -/
def posRow {R : Nat} (X : (⟨3, ![R, 16, 3]⟩ : Shape).Idx → EReal) (v : Fin R) : Pos := fun n s => X (ix3 v n s)
/-- Vertex `v`'s features in an array of `R` vertices' features. -/
def featRow {R : Nat} (Fe : (⟨3, ![R, 16, 16]⟩ : Shape).Idx → EReal) (v : Fin R) : Feat := fun n f => Fe (ix3 v n f)
/-- The coefficient array by coordinates. -/
def coefOf (C : (⟨3, ![2, 3, 4]⟩ : Shape).Idx → EReal) : Coef := fun a s j => C (ix3 a s j)

/-! ## The whole result arrays -/

/-- The result array in the factored arrangement: entry `(v, f, k)` is vertex `v`'s `rowFactored` at `(f, k)`. -/
def outFactored (X : (⟨3, ![20000, 16, 3]⟩ : Shape).Idx → EReal) (Fe : (⟨3, ![20000, 16, 16]⟩ : Shape).Idx → EReal)
    (C : (⟨3, ![2, 3, 4]⟩ : Shape).Idx → EReal) : (⟨3, ![20000, 16, 12]⟩ : Shape).Idx → EReal := fun i =>
  rowFactored (posRow X ⟨(i 0).val, (i 0).isLt⟩) (featRow Fe ⟨(i 0).val, (i 0).isLt⟩) (coefOf C)
    ⟨(i 1).val, (i 1).isLt⟩ ⟨(i 2).val, (i 2).isLt⟩

/-- The result array in the summed arrangement. -/
def outSummed (X : (⟨3, ![20000, 16, 3]⟩ : Shape).Idx → EReal) (Fe : (⟨3, ![20000, 16, 16]⟩ : Shape).Idx → EReal)
    (C : (⟨3, ![2, 3, 4]⟩ : Shape).Idx → EReal) : (⟨3, ![20000, 16, 12]⟩ : Shape).Idx → EReal := fun i =>
  rowSummed (posRow X ⟨(i 0).val, (i 0).isLt⟩) (featRow Fe ⟨(i 0).val, (i 0).isLt⟩) (coefOf C)
    ⟨(i 1).val, (i 1).isLt⟩ ⟨(i 2).val, (i 2).isLt⟩

/-- At an index given by coordinates the factored array is that vertex's row function. -/
theorem outFactored_ix3 (X : (⟨3, ![20000, 16, 3]⟩ : Shape).Idx → EReal) (Fe : (⟨3, ![20000, 16, 16]⟩ : Shape).Idx → EReal)
    (C : (⟨3, ![2, 3, 4]⟩ : Shape).Idx → EReal) (v : Fin 20000) (f : Fin 16) (k : Fin 12) :
    outFactored X Fe C (ix3 v f k) = rowFactored (posRow X v) (featRow Fe v) (coefOf C) f k := rfl

/-- At an index given by coordinates the summed array is that vertex's row function. -/
theorem outSummed_ix3 (X : (⟨3, ![20000, 16, 3]⟩ : Shape).Idx → EReal) (Fe : (⟨3, ![20000, 16, 16]⟩ : Shape).Idx → EReal)
    (C : (⟨3, ![2, 3, 4]⟩ : Shape).Idx → EReal) (v : Fin 20000) (f : Fin 16) (k : Fin 12) :
    outSummed X Fe C (ix3 v f k) = rowSummed (posRow X v) (featRow Fe v) (coefOf C) f k := rfl

/-! ## The comparison and the select, read as `if` -/

/-- A select on the one-bit answer of `d ≥ 0` (the zero written as the all-zero word) is the `if` on `0 ≤ d`. -/
theorem select_oge_zero (d a b : EReal) :
    Scalar.select (Ideal.cmp .oge d (Ideal.ofBits .f32 0x00000000#32)) a b = if 0 ≤ d then a else b := by
  rw [Ideal.ofBits_zero_f32]
  by_cases h : (0 : EReal) ≤ d
  · rw [if_pos h]
    show (if BitVec.ofBool (decide ((0 : EReal) ≤ d)) = 1 then a else b) = a
    rw [decide_eq_true h]; rfl
  · rw [if_neg h]
    show (if BitVec.ofBool (decide ((0 : EReal) ≤ d)) = 1 then a else b) = b
    rw [decide_eq_false h]; rfl

end Cert.NeighbourFilter

end
-- ==== Proof.RefSummed.lean ====
/-
  The reference program computes the summed arrangement.

  The reference is a chain of array operations: slices and broadcasts that only move entries about, and between them
  one subtraction (the offset of a neighbour from its vertex), one squaring, two products with a bank of
  coefficients each followed by an exponential, a comparison of the offset with zero, a choice between the two
  exponentials, a product with the vertex's own feature, a subtraction of the neighbour's feature, a sum over the
  sixteen neighbours, and a last regrouping of the axes (space axis, filter) into one axis of twelve columns.

  Read at ONE entry, every moving operation is "the operand at another entry", and the other entry is found by
  composing index maps; each such composite is identified below with a plain tuple of coordinates
  (the lemmas idx_...). With these the stages are read off one after the other at coordinates:

    offset          d n s        = x n s - x 0 s
    square          d n s * d n s
    coefficient     C a s j                                  (a = 0, 1: the two banks)
    exponentials    exp (d² * C 0 s j),  exp (d² * C 1 s j)
    weight          w n s j      = the first if 0 ≤ d n s, the second otherwise
    summand         fe 0 f * w n s j - fe n f
    sum             0 + sum over n of the summand

  and the regrouping sends column k of the result to (space axis k / 4, filter k % 4). That is the summed
  arrangement of the specification, entry by entry.
-/
import proofs.«171861_j37091337568908_2_alg».proof.Proof.Gen.ReferenceIdeal.Read
import proofs.«171861_j37091337568908_2_alg».proof.Proof.Spec

noncomputable section

open scoped BigOperators

namespace Cert.NeighbourFilter

open Idealize.ShloMosaic Idealize.ShloMosaic.ValueIdx Cert.ReferenceIdeal Cert.ReferenceIdeal.Read

variable (x0 : (⟨S20000x16x3, .f32⟩ : BufTy).Contents (Elt Ideal))
  (x1 : (⟨S20000x16x16, .f32⟩ : BufTy).Contents (Elt Ideal))
  (x2 : (⟨S2x3x4, .f32⟩ : BufTy).Contents (Elt Ideal))

/-! ## The offset and its square -/

/-- Taking the vertex's own row (neighbour 0) and repeating it along the neighbour axis reads position `(v, 0, s)`. -/
theorem idx_self_pos (v : Fin 20000) (n : Fin 16) (s : Fin 3) :
    idx_main_v0 (idx_main_v1 (ix3 v n s)) = ix3 v (0 : Fin 16) s :=
  funext fun a => Fin.ext (by match a with | ⟨0, _⟩ => rfl | ⟨1, _⟩ => rfl | ⟨2, _⟩ => rfl)

/-- The subtraction's entry `(v, n, s)` is neighbour `n`'s offset from vertex `v` on axis `s`. -/
theorem offset_ix (v : Fin 20000) (n : Fin 16) (s : Fin 3) :
    val_main_v2 (F := Ideal) x0 (ix3 v n s) = dist (posRow x0 v) n s := by
  rw [val_main_v2_apply, val_main_v1_apply, val_main_v0_apply, idx_self_pos]
  rfl

/-- The squaring's entry `(v, n, s)` is the offset times itself. -/
theorem square_ix (v : Fin 20000) (n : Fin 16) (s : Fin 3) :
    val_main_v3 (F := Ideal) x0 (ix3 v n s) = dist (posRow x0 v) n s * dist (posRow x0 v) n s := by
  rw [val_main_v3_apply, offset_ix]
  rfl

/-- Repeating the squares along a new filter axis reads the square at `(v, n, s)` (first copy) … -/
theorem idx_square_a (v : Fin 20000) (n : Fin 16) (s : Fin 3) (j : Fin 4) :
    idx_main_v4 (idx_main_v8 (ix4 v n s j)) = ix3 v n s :=
  funext fun a => Fin.ext (by match a with | ⟨0, _⟩ => rfl | ⟨1, _⟩ => rfl | ⟨2, _⟩ => rfl)

/-- … and so does the second copy. -/
theorem idx_square_b (v : Fin 20000) (n : Fin 16) (s : Fin 3) (j : Fin 4) :
    idx_main_v12 (idx_main_v16 (ix4 v n s j)) = ix3 v n s :=
  funext fun a => Fin.ext (by match a with | ⟨0, _⟩ => rfl | ⟨1, _⟩ => rfl | ⟨2, _⟩ => rfl)

/-- The first repeated square at `(v, n, s, j)`. -/
theorem square_a_ix (v : Fin 20000) (n : Fin 16) (s : Fin 3) (j : Fin 4) :
    val_main_v8 (F := Ideal) x0 (ix4 v n s j) = dist (posRow x0 v) n s * dist (posRow x0 v) n s := by
  rw [val_main_v8_apply, val_main_v4_apply, idx_square_a, square_ix]

/-- The second repeated square at `(v, n, s, j)`. -/
theorem square_b_ix (v : Fin 20000) (n : Fin 16) (s : Fin 3) (j : Fin 4) :
    val_main_v16 (F := Ideal) x0 (ix4 v n s j) = dist (posRow x0 v) n s * dist (posRow x0 v) n s := by
  rw [val_main_v16_apply, val_main_v12_apply, idx_square_b, square_ix]

/-! ## The two banks of coefficients -/

/-- Cutting out bank 0, dropping its axis of length one (which renumbers `(s, j)` through `4 s + j`) and repeating
    over vertices and neighbours reads coefficient `(0, s, j)`. -/
theorem idx_bank0 (v : Fin 20000) (n : Fin 16) (s : Fin 3) (j : Fin 4) :
    idx_main_v5 (idx_main_v6 (idx_main_v7 (idx_main_v9 (ix4 v n s j)))) = ix3 (0 : Fin 2) s j :=
  funext fun a => Fin.ext (by
    have hs : s.val < 3 := s.isLt
    have hj : j.val < 4 := j.isLt
    match a with
    | ⟨0, _⟩ => rfl
    | ⟨1, _⟩ => show (s.val * 4 + j.val) / 4 % 3 = s.val; omega
    | ⟨2, _⟩ => show (s.val * 4 + j.val) % 4 = j.val; omega)

/-- The same for bank 1. -/
theorem idx_bank1 (v : Fin 20000) (n : Fin 16) (s : Fin 3) (j : Fin 4) :
    idx_main_v13 (idx_main_v14 (idx_main_v15 (idx_main_v17 (ix4 v n s j)))) = ix3 (1 : Fin 2) s j :=
  funext fun a => Fin.ext (by
    have hs : s.val < 3 := s.isLt
    have hj : j.val < 4 := j.isLt
    match a with
    | ⟨0, _⟩ => rfl
    | ⟨1, _⟩ => show (s.val * 4 + j.val) / 4 % 3 = s.val; omega
    | ⟨2, _⟩ => show (s.val * 4 + j.val) % 4 = j.val; omega)

/-- The repeated bank 0 at `(v, n, s, j)` is the coefficient `C 0 s j`. -/
theorem bank0_ix (v : Fin 20000) (n : Fin 16) (s : Fin 3) (j : Fin 4) :
    val_main_v9 (F := Ideal) x2 (ix4 v n s j) = coefOf x2 0 s j := by
  rw [val_main_v9_apply, val_main_v7_apply, val_main_v6_apply, val_main_v5_apply, idx_bank0]
  rfl

/-- The repeated bank 1 at `(v, n, s, j)` is the coefficient `C 1 s j`. -/
theorem bank1_ix (v : Fin 20000) (n : Fin 16) (s : Fin 3) (j : Fin 4) :
    val_main_v17 (F := Ideal) x2 (ix4 v n s j) = coefOf x2 1 s j := by
  rw [val_main_v17_apply, val_main_v15_apply, val_main_v14_apply, val_main_v13_apply, idx_bank1]
  rfl

/-! ## The two exponentials, the comparison, and the chosen weight -/

/-- The first exponential at `(v, n, s, j)`: `exp (d² · C 0 s j)`. -/
theorem exp0_ix (v : Fin 20000) (n : Fin 16) (s : Fin 3) (j : Fin 4) :
    val_main_v11 (F := Ideal) x0 x2 (ix4 v n s j)
      = Ideal.exp (dist (posRow x0 v) n s * dist (posRow x0 v) n s * coefOf x2 0 s j) := by
  rw [val_main_v11_apply, val_main_v10_apply, square_a_ix, bank0_ix]
  rfl

/-- The second exponential at `(v, n, s, j)`: `exp (d² · C 1 s j)`. -/
theorem exp1_ix (v : Fin 20000) (n : Fin 16) (s : Fin 3) (j : Fin 4) :
    val_main_v19 (F := Ideal) x0 x2 (ix4 v n s j)
      = Ideal.exp (dist (posRow x0 v) n s * dist (posRow x0 v) n s * coefOf x2 1 s j) := by
  rw [val_main_v19_apply, val_main_v18_apply, square_b_ix, bank1_ix]
  rfl

/-- Repeating the offsets along the filter axis (for the comparison) reads the offset at `(v, n, s)`. -/
theorem idx_cond (v : Fin 20000) (n : Fin 16) (s : Fin 3) (j : Fin 4) :
    idx_main_v20 (idx_main_call0_v0 (ix4 v n s j)) = ix3 v n s :=
  funext fun a => Fin.ext (by match a with | ⟨0, _⟩ => rfl | ⟨1, _⟩ => rfl | ⟨2, _⟩ => rfl)

/-- The condition at `(v, n, s, j)` is the one-bit answer of "offset ≥ the all-zero word". -/
theorem cond_ix (v : Fin 20000) (n : Fin 16) (s : Fin 3) (j : Fin 4) :
    val_main_call0_v0 (F := Ideal) x0 (ix4 v n s j)
      = Ideal.cmp .oge (dist (posRow x0 v) n s) (Ideal.ofBits .f32 0x00000000#32) := by
  rw [val_main_call0_v0_apply, val_main_v22_apply, val_main_v20_apply, idx_cond, offset_ix, val_main_v21_apply,
    val_main_cst_apply]
  rfl

/-- The chosen exponential at `(v, n, s, j)` is neighbour `n`'s weight on axis `s` under filter `j`. -/
theorem weight_ix (v : Fin 20000) (n : Fin 16) (s : Fin 3) (j : Fin 4) :
    val_main_v23 (F := Ideal) x0 x2 (ix4 v n s j) = wgt (posRow x0 v) (coefOf x2) n s j := by
  rw [val_main_v23_apply, cond_ix, exp0_ix, exp1_ix, select_oge_zero]
  rfl

/-! ## The summand and the sum over the neighbours -/

/-- The vertex's own features, repeated over neighbours, axes and filters, read feature `(v, 0, f)`. -/
theorem idx_own (v : Fin 20000) (n f : Fin 16) (s : Fin 3) (j : Fin 4) :
    idx_main_v24 (idx_main_v25 (idx_main_v27 (ix5 v n f s j))) = ix3 v (0 : Fin 16) f :=
  funext fun a => Fin.ext (by match a with | ⟨0, _⟩ => rfl | ⟨1, _⟩ => rfl | ⟨2, _⟩ => rfl)

/-- The weights, repeated over features, read weight `(v, n, s, j)`. -/
theorem idx_weight (v : Fin 20000) (n f : Fin 16) (s : Fin 3) (j : Fin 4) :
    idx_main_v26 (idx_main_v28 (ix5 v n f s j)) = ix4 v n s j :=
  funext fun a => Fin.ext (by match a with | ⟨0, _⟩ => rfl | ⟨1, _⟩ => rfl | ⟨2, _⟩ => rfl | ⟨3, _⟩ => rfl)

/-- The neighbours' features, repeated over axes and filters, read feature `(v, n, f)`. -/
theorem idx_nbr (v : Fin 20000) (n f : Fin 16) (s : Fin 3) (j : Fin 4) :
    idx_main_v30 (idx_main_v31 (ix5 v n f s j)) = ix3 v n f :=
  funext fun a => Fin.ext (by match a with | ⟨0, _⟩ => rfl | ⟨1, _⟩ => rfl | ⟨2, _⟩ => rfl)

/-- The summand at `(v, n, f, s, j)`: the own feature times the weight, less the neighbour's feature. -/
theorem summand_ix (v : Fin 20000) (n f : Fin 16) (s : Fin 3) (j : Fin 4) :
    val_main_v32 (F := Ideal) x0 x1 x2 (ix5 v n f s j)
      = featRow x1 v 0 f * wgt (posRow x0 v) (coefOf x2) n s j - featRow x1 v n f := by
  rw [val_main_v32_apply, val_main_v29_apply, val_main_v27_apply, val_main_v25_apply, val_main_v24_apply, idx_own,
    val_main_v28_apply, val_main_v26_apply, idx_weight, weight_ix, val_main_v31_apply, val_main_v30_apply, idx_nbr]
  rfl

/-- The sum's `n`-th term at `(v, f, s, j)` is the summand at `(v, n, f, s, j)`. -/
theorem idx_term (v : Fin 20000) (f : Fin 16) (s : Fin 3) (j : Fin 4) (n : Fin 16) :
    idx_main_v33 (ix4 v f s j) n = ix5 v n f s j :=
  funext fun a => Fin.ext (by
    match a with | ⟨0, _⟩ => rfl | ⟨1, _⟩ => rfl | ⟨2, _⟩ => rfl | ⟨3, _⟩ => rfl | ⟨4, _⟩ => rfl)

/-- The sum over the neighbour axis at `(v, f, s, j)`: its initial value is zero, so it is the sum of the summands. -/
theorem sum_ix (v : Fin 20000) (f : Fin 16) (s : Fin 3) (j : Fin 4) :
    val_main_v33 (F := Ideal) x0 x1 x2 (ix4 v f s j)
      = ∑ n : Fin 16, (featRow x1 v 0 f * wgt (posRow x0 v) (coefOf x2) n s j - featRow x1 v n f) := by
  rw [val_main_v33_apply, val_main_cst_0_apply, Ideal.ofBits_def, Ideal.ofBits_zero_f32, zero_add]
  exact Finset.sum_congr rfl fun n _ => by rw [idx_term, summand_ix]

/-! ## The regrouping of (space axis, filter) into twelve columns -/

/-- Column `k` of the result reads the sum at space axis `k / 4` and filter `k % 4`: in row-major order the entry
    `(v, f, k)` of twelve columns is the entry `(v, f, k / 4, k % 4)` of three by four. -/
theorem idx_column (v : Fin 20000) (f : Fin 16) (k : Fin 12) :
    idx_main_v34 (ix3 v f k) = ix4 v f (axisOf k) (filtOf k) :=
  funext fun a => Fin.ext (by
    have hv : v.val < 20000 := v.isLt
    have hf : f.val < 16 := f.isLt
    have hk : k.val < 12 := k.isLt
    match a with
    | ⟨0, _⟩ => show ((v.val * 16 + f.val) * 12 + k.val) / 192 = v.val; omega
    | ⟨1, _⟩ => show ((v.val * 16 + f.val) * 12 + k.val) / 12 % 16 = f.val; omega
    | ⟨2, _⟩ => show ((v.val * 16 + f.val) * 12 + k.val) / 4 % 3 = k.val / 4; omega
    | ⟨3, _⟩ => show ((v.val * 16 + f.val) * 12 + k.val) % 4 = k.val % 4; omega)

/-- THE REFERENCE'S RESULT IS THE SUMMED ARRANGEMENT: entry `(v, f, k)` of the reference program's result is the sum
    over the neighbours `n` of `fe 0 f * w n (k / 4) (k % 4) - fe n f`. -/
theorem ref_eq_outSummed (x0 : (⟨Cert.ReferenceIdeal.S20000x16x3, .f32⟩ : BufTy).Contents (Elt Ideal)) (x1 : (⟨Cert.ReferenceIdeal.S20000x16x16, .f32⟩ : BufTy).Contents (Elt Ideal)) (x2 : (⟨Cert.ReferenceIdeal.S2x3x4, .f32⟩ : BufTy).Contents (Elt Ideal)) :
    Cert.ReferenceIdeal.Read.val_main_v34 (F := Ideal) x0 x1 x2 = outSummed x0 x1 x2 := by
  funext i
  obtain ⟨v, f, k, rfl⟩ : ∃ (v : Fin 20000) (f : Fin 16) (k : Fin 12), i = ix3 v f k := ⟨i 0, i 1, i 2, eq_ix3 i⟩
  rw [val_main_v34_apply, idx_column, sum_ix, outSummed_ix3]
  rfl

end Cert.NeighbourFilter

end
-- ==== Proof.Law.lean ====
/-
  The two arrangements of the neighbourhood filter's sum agree on real data.

  For one vertex, with own feature `a = fe 0 f`, weights `w n` and neighbour features `g n`, the claim is

      a * (sum over n of w n) - (sum over n of g n)  =  sum over n of (a * w n - g n).

  On the extended reals this is false in general (a product does not distribute over a sum that mixes the two
  infinities, and a sum of differences does not split), so the proof first shows that every quantity involved is
  the image of a real number:

  * the entries of the positions, the features and the coefficients are real by hypothesis;
  * an offset is a difference of two reals, its square times a coefficient is a product of reals, and the exponential
    of a real is a real, so every weight is real whichever coefficient bank the sign of the offset picks.

  With real witnesses in hand the coercion from the reals is pushed outwards through the products, the differences
  and the two finite sums, and what is left is the identity above in the field of real numbers: distributivity of
  a factor over a finite sum, and the sum of differences being the difference of the sums.

  The statement for the whole result arrays follows entry by entry: each entry of either array is the row function
  of one vertex's data, cut out of real arrays.
-/
import proofs.«171861_j37091337568908_2_alg».proof.Proof.Spec

noncomputable section

open scoped BigOperators

namespace Cert.NeighbourFilter

open Idealize.ShloMosaic Idealize.ShloMosaic.ValueIdx

/-- The coercion of the reals into the extended reals commutes with a finite sum. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- An offset between real positions is real. -/
theorem dist_real (xs : Pos) (hx : ∀ n s, ∃ r : ℝ, xs n s = (r : EReal)) (n : Fin 16) (s : Fin 3) :
    ∃ r : ℝ, dist xs n s = (r : EReal) := by
  obtain ⟨a, ha⟩ := hx n s
  obtain ⟨b, hb⟩ := hx 0 s
  exact ⟨a - b, by unfold dist; rw [ha, hb, EReal.coe_sub]⟩

/-- A weight built from real positions and real coefficients is real: the exponential of a real number, whichever
    bank of coefficients the sign of the offset selects. -/
theorem wgt_real (xs : Pos) (C : Coef) (hx : ∀ n s, ∃ r : ℝ, xs n s = (r : EReal))
    (hc : ∀ a s j, ∃ r : ℝ, C a s j = (r : EReal)) (n : Fin 16) (s : Fin 3) (j : Fin 4) :
    ∃ r : ℝ, wgt xs C n s j = (r : EReal) := by
  obtain ⟨d, hd⟩ := dist_real xs hx n s
  obtain ⟨c0, hc0⟩ := hc 0 s j
  obtain ⟨c1, hc1⟩ := hc 1 s j
  unfold wgt
  rw [hd, hc0, hc1, ← EReal.coe_mul, ← EReal.coe_mul, ← EReal.coe_mul, Ideal.exp_coe, Ideal.exp_coe]
  by_cases h : (0 : EReal) ≤ (d : EReal)
  · exact ⟨Real.exp (d * d * c0), by rw [if_pos h]⟩
  · exact ⟨Real.exp (d * d * c1), by rw [if_neg h]⟩

/-- The law on real numbers: a factor distributes over a finite sum and a sum of differences splits. -/
theorem real_law {ι : Type} (s : Finset ι) (a : ℝ) (w g : ι → ℝ) :
    a * (∑ n ∈ s, w n) - ∑ n ∈ s, g n = ∑ n ∈ s, (a * w n - g n) := by
  rw [Finset.mul_sum, Finset.sum_sub_distrib]

/-- On real data the factored arrangement of one vertex's row equals the summed one. -/
theorem rowFactored_eq_rowSummed (xs : Pos) (fe : Feat) (C : Coef)
    (hx : ∀ n s, ∃ r : ℝ, xs n s = (r : EReal)) (hf : ∀ n f, ∃ r : ℝ, fe n f = (r : EReal)) (hc : ∀ a s j, ∃ r : ℝ, C a s j = (r : EReal))
    (f : Fin 16) (k : Fin 12) : rowFactored xs fe C f k = rowSummed xs fe C f k := by
  choose w hw using fun n => wgt_real xs C hx hc n (axisOf k) (filtOf k)
  choose g hg using fun n => hf n f
  unfold rowFactored rowSummed
  simp only [hw, hg]
  rw [← coe_sum, ← coe_sum, ← EReal.coe_mul, ← EReal.coe_sub, real_law]
  rw [coe_sum]
  exact Finset.sum_congr rfl fun n _ => by rw [EReal.coe_sub, EReal.coe_mul]

/-- On real arrays the whole result array in the factored arrangement equals the one in the summed arrangement:
    entry by entry it is the law for the vertex that entry belongs to. -/
theorem outFactored_eq_outSummed (X : (⟨3, ![20000, 16, 3]⟩ : Shape).Idx → EReal) (Fe : (⟨3, ![20000, 16, 16]⟩ : Shape).Idx → EReal) (C : (⟨3, ![2, 3, 4]⟩ : Shape).Idx → EReal)
    (hX : ∀ i, ∃ r : ℝ, X i = (r : EReal)) (hFe : ∀ i, ∃ r : ℝ, Fe i = (r : EReal)) (hC : ∀ i, ∃ r : ℝ, C i = (r : EReal)) :
    outFactored X Fe C = outSummed X Fe C := by
  funext i
  unfold outFactored outSummed
  exact rowFactored_eq_rowSummed _ _ _ (fun n s => hX _) (fun n f => hFe _) (fun a s j => hC _) _ _

end Cert.NeighbourFilter

end
-- ==== Proof.Finite.lean ====
/-
  What the precondition says: every entry of the three input arrays is a real number.

  The precondition is the conjunction, over the three arrays, of "every entry x satisfies |x| < +infinity", each
  conjunct written as a reduction by `and` over all axes of the array of one-bit answers of that comparison, started
  from 1. Read at the extended reals:

  * the conjunction of one-bit words is 1 exactly when each of them is 1;
  * a reduction by `and` over every axis whose result is 1 met a 1 at every entry;
  * the constant the comparison is made against, the word 0x7F800000, denotes the top element, and the absolute
    value of x is max x (-x); so the answer at an entry is 1 exactly when max x (-x) < top;
  * of the three kinds of extended real, bottom and top have max x (-x) = top, so only a real number passes, and it
    is its own witness.
-/
import proofs.«171861_j37091337568908_2_alg».proof.Pre_finite_inputs
import Idealize.ShloMosaic.Lib.ReduceAll
import Idealize.ShloMosaic.Lib.ValueIdx
import Idealize.ShloMosaic.PureOps.Ideal.Laws

noncomputable section

namespace Cert.NeighbourFilter

open Idealize.ShloMosaic Idealize.ShloMosaic.ValueIdx

/-- The shape of rank zero has exactly one index: there is no axis to have a coordinate on. -/
instance subsingleton_scalar_idx : Subsingleton Cert.Pre_finite_inputs.S_.Idx :=
  ⟨fun _ _ => funext fun d => d.elim0⟩

/-- The word `0x7F800000` (sign 0, exponent all ones, fraction 0) denotes the top element. -/
theorem ofBits_inf_f32 : Ideal.ofBits .f32 0x7F800000#32 = (⊤ : EReal) := by
  simp [Ideal.ofBits, Ideal.ieee]

/-- An extended real whose absolute value `max x (-x)` lies strictly below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 exactly when the truth value is true. -/
theorem ofBool_eq_one_iff (b : Bool) : BitVec.ofBool b = 1#1 ↔ b = true := by cases b <;> decide

/-- One entry: the comparison "|x| < +infinity" answering 1 says that `x` is real. -/
theorem real_of_abs_olt_inf (x : Ideal .f32)
    (h : FloatOps.cmpf .olt (FloatOps.hostAbsf x) (FloatOps.ofBits (F := Ideal) .f32 0x7F800000#32) = 1#1) :
    ∃ r : ℝ, x = (r : EReal) := by
  rw [Ideal.hostAbsf_def, Ideal.absf_def, Ideal.ofBits_def, Ideal.cmpf_def, ofBits_inf_f32] at h
  unfold Ideal.cmp at h
  rw [ofBool_eq_one_iff] at h
  exact real_of_abs_lt_top x (of_decide_eq_true h)

/-- The precondition on the three inputs, read at the extended reals, makes every entry of each of them real. -/
theorem real_of_pre [Cert.Pre_finite_inputs.Facts] (x0 : FVec Ideal Cert.Pre_finite_inputs.S20000x16x3 .f32) (x1 : FVec Ideal Cert.Pre_finite_inputs.S20000x16x16 .f32) (x2 : FVec Ideal Cert.Pre_finite_inputs.S2x3x4 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ix0
  dsimp only [Cert.Pre_finite_inputs.fn] at e
  -- the outer conjunction, then the inner one: each of the three reductions answered 1
  obtain ⟨e01, e2⟩ := IntOp.andi_eq_one.1 e
  obtain ⟨e0, e1⟩ := IntOp.andi_eq_one.1 e01
  -- a reduction by `and` over all axes that answered 1 met a 1 at every entry; an entry's 1 says the entry is real
  exact ⟨fun i => real_of_abs_olt_inf (x0 i) (Host.reduce_andi_all _ _ _ _ ix0 e0 i),
    fun i => real_of_abs_olt_inf (x1 i) (Host.reduce_andi_all _ _ _ _ ix0 e1 i),
    fun i => real_of_abs_olt_inf (x2 i) (Host.reduce_andi_all _ _ _ _ ix0 e2 i)⟩

end Cert.NeighbourFilter

end
-- ==== Proof.Block.lean ====
/-
  The result of a block of 250 vertices, and reading it — and the whole array — at an index known by its coordinates' values.

  `blockFactored` is `outFactored` for a block: entry `(p, q, k)` of the 250 x 16 x 12 block is vertex `p`'s factored row
  at `(q, k)`. The two `_of_val` lemmas say that an index whose three coordinates have the values of `p`, `q`, `k` reads
  that row entry: it is how a position inside a grid point's block (block number times 250, plus the row inside the
  block) is matched with the array's row.
-/
import proofs.«171861_j37091337568908_2_alg».proof.Proof.Spec

noncomputable section

namespace Cert.NeighbourFilter

open Idealize.ShloMosaic Idealize.ShloMosaic.ValueIdx

/-- The result block of 250 vertices in the factored arrangement. -/
def blockFactored (X : (⟨3, ![250, 16, 3]⟩ : Shape).Idx → EReal) (Fe : (⟨3, ![250, 16, 16]⟩ : Shape).Idx → EReal)
    (C : (⟨3, ![2, 3, 4]⟩ : Shape).Idx → EReal) : (⟨3, ![250, 16, 12]⟩ : Shape).Idx → EReal := fun i =>
  rowFactored (posRow X ⟨(i 0).val, (i 0).isLt⟩) (featRow Fe ⟨(i 0).val, (i 0).isLt⟩) (coefOf C)
    ⟨(i 1).val, (i 1).isLt⟩ ⟨(i 2).val, (i 2).isLt⟩

/-- The block at an index whose coordinates have the values of `p`, `q`, `k`. -/
theorem blockFactored_of_val (X : (⟨3, ![250, 16, 3]⟩ : Shape).Idx → EReal) (Fe : (⟨3, ![250, 16, 16]⟩ : Shape).Idx → EReal)
    (C : (⟨3, ![2, 3, 4]⟩ : Shape).Idx → EReal) (y : (⟨3, ![250, 16, 12]⟩ : Shape).Idx) (p : Fin 250) (q : Fin 16) (k : Fin 12)
    (h0 : (y 0).val = p.val) (h1 : (y 1).val = q.val) (h2 : (y 2).val = k.val) :
    blockFactored X Fe C y = rowFactored (posRow X p) (featRow Fe p) (coefOf C) q k := by
  obtain rfl : y = ix3 p q k := by
    funext a; apply Fin.ext
    match a with
    | ⟨0, _⟩ => exact h0
    | ⟨1, _⟩ => exact h1
    | ⟨2, _⟩ => exact h2
  rfl

/-- The array at an index whose coordinates have the values of `v`, `f`, `k`. -/
theorem outFactored_of_val (X : (⟨3, ![20000, 16, 3]⟩ : Shape).Idx → EReal) (Fe : (⟨3, ![20000, 16, 16]⟩ : Shape).Idx → EReal)
    (C : (⟨3, ![2, 3, 4]⟩ : Shape).Idx → EReal) (i : (⟨3, ![20000, 16, 12]⟩ : Shape).Idx) (v : Fin 20000) (f : Fin 16) (k : Fin 12)
    (h0 : (i 0).val = v.val) (h1 : (i 1).val = f.val) (h2 : (i 2).val = k.val) :
    outFactored X Fe C i = rowFactored (posRow X v) (featRow Fe v) (coefOf C) f k := by
  obtain rfl : i = ix3 v f k := by
    funext a; apply Fin.ext
    match a with
    | ⟨0, _⟩ => exact h0
    | ⟨1, _⟩ => exact h1
    | ⟨2, _⟩ => exact h2
  rfl

end Cert.NeighbourFilter

end
-- ==== Proof.Tile.lean ====
/-
  One store of the kernel body, read at an index.

  The body works on a block of 250 vertices. For each space axis `s` it forms the 250 x 16 table of neighbour offsets
  `d = x(p, n, s) - x(p, 0, s)` (`offs`); for each filter `j` it takes the two coefficients `c(0, s, j)`, `c(1, s, j)`
  out of the coefficient block as scalars (`coefAt`), forms the weights `exp (d * d * c)` with the bank chosen by the sign
  of `d`, sums them over the 16 neighbours of each vertex, multiplies that row total into the vertex's own features
  (`ownFeat`: neighbour 0's) and subtracts the feature totals over the neighbours (`featSum`); the 250 x 16 result is
  stored as column `4 * s + j` of the output block (`tile`). The definitions below are those terms as the body spells
  them — slices, unit-axis shape casts, a column broadcast, a lane sum — and the lemmas read each at explicit coordinates:
  a shape cast keeps the row-major position, a slice shifts by its offsets, a broadcast of a column repeats it along the
  row, a lane sum is the sum over the dropped coordinate. `tile_row` is the result: at `(p, q)` a tile is vertex
  `p`'s `rowFactored` at feature `q` and the tile's column.
-/
import proofs.«171861_j37091337568908_2_alg».proof.KernelIdeal
import proofs.«171861_j37091337568908_2_alg».proof.Proof.Spec
import Idealize.ShloMosaic.Lib.Pipeline.Value
import Idealize.ShloMosaic.Lib.ValueIdx
import Idealize.ShloMosaic.PureOps.Ideal.Laws

noncomputable section

open scoped BigOperators

namespace Cert.NeighbourFilter

open Idealize.ShloMosaic Idealize.ShloMosaic.ValueIdx Cert.KernelIdeal

/-! ## The layout operations at explicit coordinates -/

/-- Dropping a trailing unit axis: `[250, 16, 1] → [250, 16]` keeps `(p, n)`. -/
theorem cast_drop_last (x : FVec Ideal S250x16x1 .f32) (h : S250x16x1.ShapeCasts S250x16) (p : Fin 250) (n : Fin 16) :
    shapeCast S250x16 x h (ix2 p n) = x (ix3 p n 0) :=
  shapeCast_apply x h (ix2 p n) (ix3 p n 0)
    (by rw [Shape.rowMajor_val_three, Shape.rowMajor_val_two]; show (p.val * 16 + n.val) * 1 + 0 = p.val * 16 + n.val; omega)

/-- Adding a trailing unit axis: `[250, 16] → [250, 16, 1]` keeps `(p, q)`. -/
theorem cast_add_last (x : FVec Ideal S250x16 .f32) (h : S250x16.ShapeCasts S250x16x1) (p : Fin 250) (q : Fin 16) (z : Fin 1) :
    shapeCast S250x16x1 x h (ix3 p q z) = x (ix2 p q) :=
  shapeCast_apply x h (ix3 p q z) (ix2 p q)
    (by rw [Shape.rowMajor_val_three, Shape.rowMajor_val_two]; show p.val * 16 + q.val = (p.val * 16 + q.val) * 1 + z.val; have := z.isLt; omega)

/-- Dropping the middle unit axis: `[250, 1, 16] → [250, 16]`. -/
theorem cast_drop_mid (x : FVec Ideal S250x1x16 .f32) (h : S250x1x16.ShapeCasts S250x16) (p : Fin 250) (q : Fin 16) :
    shapeCast S250x16 x h (ix2 p q) = x (ix3 p 0 q) :=
  shapeCast_apply x h (ix2 p q) (ix3 p 0 q)
    (by rw [Shape.rowMajor_val_three, Shape.rowMajor_val_two]; show (p.val * 1 + 0) * 16 + q.val = p.val * 16 + q.val; omega)

/-- `[250, 1, 1] → [250, 1]`: a column stays a column. -/
theorem cast_col_drop (x : FVec Ideal S250x1x1 .f32) (h : S250x1x1.ShapeCasts S250x1) (p : Fin 250) :
    shapeCast S250x1 x h (ix2 p 0) = x (ix3 p 0 0) :=
  shapeCast_apply x h (ix2 p 0) (ix3 p 0 0)
    (by rw [Shape.rowMajor_val_three, Shape.rowMajor_val_two]; show (p.val * 1 + 0) * 1 + 0 = p.val * 1 + 0; omega)

/-- `[250] → [250, 1]`: a vector as a column. -/
theorem cast_col (x : FVec Ideal S250 .f32) (h : S250.ShapeCasts S250x1) (p : Fin 250) :
    shapeCast S250x1 x h (ix2 p 0) = x (ix1 p) :=
  shapeCast_apply x h (ix2 p 0) (ix1 p)
    (by rw [Shape.rowMajor_val_one, Shape.rowMajor_val_two]; show p.val = p.val * 1 + 0; omega)

/-- A column broadcast along the rows: `[250, 1] → [250, 16]` reads row `p`'s one entry at every `n`. -/
theorem bcast_col (x : FVec Ideal S250x1 .f32) (h : S250x1.Broadcasts S250x16) (p : Fin 250) (n : Fin 16) :
    broadcastTo S250x16 x h (ix2 p n) = x (ix2 p 0) :=
  broadcastTo_apply x h (ix2 p n) (ix2 p 0) (fun a => match a with
    | ⟨0, _⟩ => by show p.val = if (250 : Nat) = 1 then 0 else p.val; rw [if_neg (by decide)]
    | ⟨1, _⟩ => by show 0 = if (1 : Nat) = 1 then 0 else n.val; rw [if_pos rfl])

/-- The lane sum of a `[250, 16]` table: row `p`'s total over its 16 entries. -/
theorem lane_sum (w : FVec Ideal S250x16 .f32) (h : S250x16.Reduces [1] S250) (hφ : FKind.Formats .f32)
    (hacc : (0x00000000#32 : BitVec 32) = FKind.add.neutral .f32 hφ) (p : Fin 250) :
    multiReduction .add [1] S250 w 0x00000000#32 h hφ hacc (ix1 p) = ∑ n : Fin 16, w (ix2 p n) := by
  refine (Ideal.multiReduction_add_single w 0x00000000#32 h hφ hacc (ix1 p)).trans ?_
  show ∑ n : Fin 16, w (h.lift (ix1 p) n) = _
  refine Finset.sum_congr rfl fun n _ => congrArg w ?_
  funext c; apply Fin.ext
  match c with
  | ⟨0, _⟩ => rfl
  | ⟨1, _⟩ => rfl

/-- The sum over the neighbour axis of a `[250, 16, 16]` block: at `(p, q)` the total over `n` of `(p, n, q)`. -/
theorem mid_sum (w : FVec Ideal S250x16x16 .f32) (h : S250x16x16.Reduces [1] S250x16) (hφ : FKind.Formats .f32)
    (hacc : (0x00000000#32 : BitVec 32) = FKind.add.neutral .f32 hφ) (p : Fin 250) (q : Fin 16) :
    multiReduction .add [1] S250x16 w 0x00000000#32 h hφ hacc (ix2 p q) = ∑ n : Fin 16, w (ix3 p n q) := by
  refine (Ideal.multiReduction_add_single w 0x00000000#32 h hφ hacc (ix2 p q)).trans ?_
  show ∑ n : Fin 16, w (h.lift (ix2 p q) n) = _
  refine Finset.sum_congr rfl fun n _ => congrArg w ?_
  funext c; apply Fin.ext
  match c with
  | ⟨0, _⟩ => rfl
  | ⟨1, _⟩ => rfl
  | ⟨2, _⟩ => rfl

/-! ## The body's terms -/

section Terms
variable [Cert.KernelIdeal.Facts]
open Cert.KernelIdeal.Facts₀ Cert.KernelIdeal.Facts

/-- The table of neighbour offsets on the space axis at lane offset `o`: each neighbour's coordinate less the vertex's own. -/
def offs (x0 : Vec Ideal S250x16x3 .f32) (o : Nat) (h1 : S250x16x3.Slices ![0, 0, o] S250x16x1)
    (h2 : S250x16x3.Slices ![0, 0, o] S250x1x1) : FVec Ideal S250x16 .f32 :=
  subf (shapeCast S250x16 (extractStridedSlice S250x16x1 ![0, 0, o] x0 h1) shapeCasts_S250x16x1_S250x16)
    (broadcastTo S250x16 (shapeCast S250x1 (extractStridedSlice S250x1x1 ![0, 0, o] x0 h2) shapeCasts_S250x1x1_S250x1)
      broadcasts_S250x1_S250x16)

/-- One coefficient taken out of the coefficient block as a scalar. -/
def coefAt (x2 : Vec Ideal S2x3x4 .f32) (a s j : Nat) (h : S2x3x4.Slices ![a, s, j] S1x1x1) : Ideal .f32 :=
  extractAt ![0, 0, 0] (extractStridedSlice S1x1x1 ![a, s, j] x2 h) inpos_S1x1x1_p0_0_0

/-- Each vertex's own features: neighbour 0's row of the feature block. -/
def ownFeat (x1 : Vec Ideal S250x16x16 .f32) : FVec Ideal S250x16 .f32 :=
  shapeCast S250x16 (extractStridedSlice S250x1x16 ![0, 0, 0] x1 slices_S250x16x16_o0_0_0_S250x1x16) shapeCasts_S250x1x16_S250x16

/-- Each vertex's feature totals over its 16 neighbours. -/
def featSum (x1 : Vec Ideal S250x16x16 .f32) : FVec Ideal S250x16 .f32 :=
  multiReduction .add [1] S250x16 x1 0x00000000#32 reduces_S250x16x16_S250x16 (.inl rfl) rfl

/-- One stored column: own feature times the row total of the sign-selected weights, less the feature total. -/
def tile (d : FVec Ideal S250x16 .f32) (cp cm : Ideal .f32) (nf fs : FVec Ideal S250x16 .f32) : FVec Ideal S250x16x1 .f32 :=
  shapeCast S250x16x1
    (subf (mulf nf (broadcastTo S250x16 (shapeCast S250x1
      (multiReduction .add [1] S250
        (select (cmpf .oge d (broadcast S250x16 (Scalar.ofBits .f32 0x00000000#32)))
          (exp (mulf (mulf d d) (broadcast S250x16 cp))) (exp (mulf (mulf d d) (broadcast S250x16 cm))))
        0x00000000#32 reduces_S250x16_S250 (.inl rfl) rfl)
      shapeCasts_S250_S250x1) broadcasts_S250x1_S250x16)) fs)
    shapeCasts_S250x16_S250x16x1

/-- The offset table at `(p, n)` is neighbour `n`'s offset from vertex `p` on the axis the lane offset names. -/
theorem offs_apply (x0 : Vec Ideal S250x16x3 .f32) (o : Nat) (h1 : S250x16x3.Slices ![0, 0, o] S250x16x1)
    (h2 : S250x16x3.Slices ![0, 0, o] S250x1x1) (s : Fin 3) (hs : s.val = o) (p : Fin 250) (n : Fin 16) :
    offs x0 o h1 h2 (ix2 p n) = dist (posRow x0 p) n s := by
  unfold offs
  show shapeCast S250x16 (extractStridedSlice S250x16x1 ![0, 0, o] x0 h1) shapeCasts_S250x16x1_S250x16 (ix2 p n)
      - broadcastTo S250x16 (shapeCast S250x1 (extractStridedSlice S250x1x1 ![0, 0, o] x0 h2) shapeCasts_S250x1x1_S250x1)
          broadcasts_S250x1_S250x16 (ix2 p n) = x0 (ix3 p n s) - x0 (ix3 p 0 s)
  refine congrArg₂ (· - ·) ?_ ?_
  · refine (cast_drop_last _ _ p n).trans ?_
    exact extractStridedSlice_apply _ x0 h1 (ix3 p n 0) (ix3 p n s) (fun a => match a with
      | ⟨0, _⟩ => by show p.val = 0 + p.val; omega
      | ⟨1, _⟩ => by show n.val = 0 + n.val; omega
      | ⟨2, _⟩ => by show s.val = o + 0; omega)
  · refine (bcast_col _ _ p n).trans ?_
    refine (cast_col_drop _ _ p).trans ?_
    exact extractStridedSlice_apply _ x0 h2 (ix3 p 0 0) (ix3 p 0 s) (fun a => match a with
      | ⟨0, _⟩ => by show p.val = 0 + p.val; omega
      | ⟨1, _⟩ => by show 0 = 0 + 0; omega
      | ⟨2, _⟩ => by show s.val = o + 0; omega)

/-- A coefficient taken out as a scalar is the block's entry at that position. -/
theorem coefAt_apply (x2 : Vec Ideal S2x3x4 .f32) (a s j : Nat) (h : S2x3x4.Slices ![a, s, j] S1x1x1)
    (a' : Fin 2) (s' : Fin 3) (j' : Fin 4) (ha : a'.val = a) (hs : s'.val = s) (hj : j'.val = j) :
    coefAt x2 a s j h = coefOf x2 a' s' j' := by
  unfold coefAt extractAt
  exact extractStridedSlice_apply _ x2 h _ (ix3 a' s' j') (fun c => match c with
    | ⟨0, _⟩ => by show a'.val = a + 0; omega
    | ⟨1, _⟩ => by show s'.val = s + 0; omega
    | ⟨2, _⟩ => by show j'.val = j + 0; omega)

/-- A vertex's own feature `q`. -/
theorem ownFeat_apply (x1 : Vec Ideal S250x16x16 .f32) (p : Fin 250) (q : Fin 16) :
    ownFeat x1 (ix2 p q) = featRow x1 p 0 q := by
  unfold ownFeat
  refine (cast_drop_mid _ _ p q).trans ?_
  exact extractStridedSlice_apply _ x1 _ (ix3 p 0 q) (ix3 p 0 q) (fun a => match a with
    | ⟨0, _⟩ => by show p.val = 0 + p.val; omega
    | ⟨1, _⟩ => by show 0 = 0 + 0; omega
    | ⟨2, _⟩ => by show q.val = 0 + q.val; omega)

/-- A vertex's total of feature `q` over its neighbours. -/
theorem featSum_apply (x1 : Vec Ideal S250x16x16 .f32) (p : Fin 250) (q : Fin 16) :
    featSum x1 (ix2 p q) = ∑ n : Fin 16, featRow x1 p n q := by
  unfold featSum
  exact mid_sum x1 _ _ _ p q

/-- A stored column at `(p, q)`, from its ingredients at their coordinates. -/
theorem tile_apply (d : FVec Ideal S250x16 .f32) (cp cm : Ideal .f32) (nf fs : FVec Ideal S250x16 .f32)
    (p : Fin 250) (q : Fin 16) (z : Fin 1) :
    tile d cp cm nf fs (ix3 p q z)
      = nf (ix2 p q) * (∑ n : Fin 16, if 0 ≤ d (ix2 p n) then Ideal.exp (d (ix2 p n) * d (ix2 p n) * cp)
          else Ideal.exp (d (ix2 p n) * d (ix2 p n) * cm)) - fs (ix2 p q) := by
  unfold tile
  refine (cast_add_last _ _ p q z).trans ?_
  show nf (ix2 p q) * broadcastTo S250x16 (shapeCast S250x1
      (multiReduction .add [1] S250
        (select (cmpf .oge d (broadcast S250x16 (Scalar.ofBits .f32 0x00000000#32)))
          (exp (mulf (mulf d d) (broadcast S250x16 cp))) (exp (mulf (mulf d d) (broadcast S250x16 cm))))
        0x00000000#32 reduces_S250x16_S250 (.inl rfl) rfl)
      shapeCasts_S250_S250x1) broadcasts_S250x1_S250x16 (ix2 p q) - fs (ix2 p q) = _
  refine congrArg (fun t => nf (ix2 p q) * t - fs (ix2 p q)) ?_
  refine (bcast_col _ _ p q).trans ?_
  refine (cast_col _ _ p).trans ?_
  refine (lane_sum _ _ _ _ p).trans ?_
  refine Finset.sum_congr rfl fun n _ => ?_
  show Scalar.select (Ideal.cmp .oge (d (ix2 p n)) (Ideal.ofBits .f32 0x00000000#32))
      (Ideal.exp (d (ix2 p n) * d (ix2 p n) * cp)) (Ideal.exp (d (ix2 p n) * d (ix2 p n) * cm)) = _
  exact select_oge_zero _ _ _

/-- THE COLUMN AS THE ROW FUNCTION: the tile built from the offsets on axis `s`, the two coefficients of `(s, j)`, the own
    features and the feature totals is, at `(p, q)`, vertex `p`'s factored row at feature `q` and column `k = 4 s + j`. -/
theorem tile_row (x0 : Vec Ideal S250x16x3 .f32) (x1 : Vec Ideal S250x16x16 .f32) (x2 : Vec Ideal S2x3x4 .f32)
    (s j : Nat) (h1 : S250x16x3.Slices ![0, 0, s] S250x16x1) (h2 : S250x16x3.Slices ![0, 0, s] S250x1x1)
    (hc0 : S2x3x4.Slices ![0, s, j] S1x1x1) (hc1 : S2x3x4.Slices ![1, s, j] S1x1x1)
    (k : Fin 12) (hs : (axisOf k).val = s) (hj : (filtOf k).val = j) (p : Fin 250) (q : Fin 16) (z : Fin 1) :
    tile (offs x0 s h1 h2) (coefAt x2 0 s j hc0) (coefAt x2 1 s j hc1) (ownFeat x1) (featSum x1) (ix3 p q z)
      = rowFactored (posRow x0 p) (featRow x1 p) (coefOf x2) q k := by
  rw [tile_apply, ownFeat_apply, featSum_apply,
    coefAt_apply x2 0 s j hc0 0 (axisOf k) (filtOf k) rfl hs hj,
    coefAt_apply x2 1 s j hc1 1 (axisOf k) (filtOf k) rfl hs hj]
  unfold rowFactored wgt
  refine congrArg (fun t => featRow x1 p 0 q * t - ∑ n : Fin 16, featRow x1 p n q) ?_
  refine Finset.sum_congr rfl fun n _ => ?_
  rw [offs_apply x0 s h1 h2 (axisOf k) hs p n]

end Terms

end Cert.NeighbourFilter

end
-- ==== Proof.Pieces.lean ====
/-
  What the body leaves in the output block: the block function.

  The body stores twelve columns, one per pair (space axis `s`, filter `j`), column `k = 4 s + j` through the unit-width
  rectangle at lane offset `k`. Each stored value is a `tile` (by unfolding the body's named values: the offsets on axis
  `s`, their squares and signs are shared by the four filters of that axis). A tile read through its rectangle is the
  block function `blockFactored` at the rectangle's position: the rectangle keeps the row and the feature and puts the
  lane at `k`. Twelve rectangles that tile the block, each carrying the same function of the block index, leave that
  function: `block_eq`.
-/
import proofs.«171861_j37091337568908_2_alg».proof.Proof.Gen.KernelIdeal.Frame
import proofs.«171861_j37091337568908_2_alg».proof.Proof.Tile
import proofs.«171861_j37091337568908_2_alg».proof.Proof.Block

set_option maxRecDepth 16384

noncomputable section

namespace Cert.NeighbourFilter

open Idealize.ShloMosaic Idealize.ShloMosaic.ValueIdx Cert.KernelIdeal Cert.KernelIdeal.Gen

section
variable (x0 : Vec Ideal S250x16x3 .f32) (x1 : Vec Ideal S250x16x16 .f32) (x2 : Vec Ideal S2x3x4 .f32)

/-! ## Each stored value is a tile -/

/-- Column 0's stored value is the tile of space axis 0 and filter 0. -/
theorem piece0 : k0_pay7 x0 x1 x2 = tile (offs x0 0 slices_S250x16x3_o0_0_0_S250x16x1 slices_S250x16x3_o0_0_0_S250x1x1) (coefAt x2 0 0 0 slices_S2x3x4_o0_0_0_S1x1x1) (coefAt x2 1 0 0 slices_S2x3x4_o1_0_0_S1x1x1) (ownFeat x1) (featSum x1) := rfl

/-- Column 1's stored value is the tile of space axis 0 and filter 1. -/
theorem piece1 : k0_pay10 (k0_pay2 x1) (k0_pay3 x1) (k0_pay6 x0) (k0_pay8 x0 x2) (k0_pay9 x0 x2) = tile (offs x0 0 slices_S250x16x3_o0_0_0_S250x16x1 slices_S250x16x3_o0_0_0_S250x1x1) (coefAt x2 0 0 1 slices_S2x3x4_o0_0_1_S1x1x1) (coefAt x2 1 0 1 slices_S2x3x4_o1_0_1_S1x1x1) (ownFeat x1) (featSum x1) := rfl

/-- Column 2's stored value is the tile of space axis 0 and filter 2. -/
theorem piece2 : k0_pay11 x2 (k0_pay2 x1) (k0_pay3 x1) (k0_pay5 x0) (k0_pay6 x0) = tile (offs x0 0 slices_S250x16x3_o0_0_0_S250x16x1 slices_S250x16x3_o0_0_0_S250x1x1) (coefAt x2 0 0 2 slices_S2x3x4_o0_0_2_S1x1x1) (coefAt x2 1 0 2 slices_S2x3x4_o1_0_2_S1x1x1) (ownFeat x1) (featSum x1) := rfl

/-- Column 3's stored value is the tile of space axis 0 and filter 3. -/
theorem piece3 : k0_pay12 x2 (k0_pay2 x1) (k0_pay3 x1) (k0_pay5 x0) (k0_pay6 x0) = tile (offs x0 0 slices_S250x16x3_o0_0_0_S250x16x1 slices_S250x16x3_o0_0_0_S250x1x1) (coefAt x2 0 0 3 slices_S2x3x4_o0_0_3_S1x1x1) (coefAt x2 1 0 3 slices_S2x3x4_o1_0_3_S1x1x1) (ownFeat x1) (featSum x1) := rfl

/-- Column 4's stored value is the tile of space axis 1 and filter 0. -/
theorem piece4 : k0_pay17 x0 x2 (k0_pay2 x1) (k0_pay3 x1) (k0_pay13 x0) = tile (offs x0 1 slices_S250x16x3_o0_0_1_S250x16x1 slices_S250x16x3_o0_0_1_S250x1x1) (coefAt x2 0 1 0 slices_S2x3x4_o0_1_0_S1x1x1) (coefAt x2 1 1 0 slices_S2x3x4_o1_1_0_S1x1x1) (ownFeat x1) (featSum x1) := rfl

/-- Column 5's stored value is the tile of space axis 1 and filter 1. -/
theorem piece5 : k0_pay18 x0 x2 (k0_pay2 x1) (k0_pay3 x1) (k0_pay13 x0) = tile (offs x0 1 slices_S250x16x3_o0_0_1_S250x16x1 slices_S250x16x3_o0_0_1_S250x1x1) (coefAt x2 0 1 1 slices_S2x3x4_o0_1_1_S1x1x1) (coefAt x2 1 1 1 slices_S2x3x4_o1_1_1_S1x1x1) (ownFeat x1) (featSum x1) := rfl

/-- Column 6's stored value is the tile of space axis 1 and filter 2. -/
theorem piece6 : k0_pay21 (k0_pay2 x1) (k0_pay3 x1) (k0_pay15 x0 (k0_pay13 x0)) (k0_pay16 x0 (k0_pay13 x0)) (k0_pay19 x2) (k0_pay20 x2) = tile (offs x0 1 slices_S250x16x3_o0_0_1_S250x16x1 slices_S250x16x3_o0_0_1_S250x1x1) (coefAt x2 0 1 2 slices_S2x3x4_o0_1_2_S1x1x1) (coefAt x2 1 1 2 slices_S2x3x4_o1_1_2_S1x1x1) (ownFeat x1) (featSum x1) := rfl

/-- Column 7's stored value is the tile of space axis 1 and filter 3. -/
theorem piece7 : k0_pay22 x2 (k0_pay2 x1) (k0_pay3 x1) (k0_pay15 x0 (k0_pay13 x0)) (k0_pay16 x0 (k0_pay13 x0)) = tile (offs x0 1 slices_S250x16x3_o0_0_1_S250x16x1 slices_S250x16x3_o0_0_1_S250x1x1) (coefAt x2 0 1 3 slices_S2x3x4_o0_1_3_S1x1x1) (coefAt x2 1 1 3 slices_S2x3x4_o1_1_3_S1x1x1) (ownFeat x1) (featSum x1) := rfl

/-- Column 8's stored value is the tile of space axis 2 and filter 0. -/
theorem piece8 : k0_pay28 (k0_pay2 x1) (k0_pay3 x1) (k0_pay25 x0) (k0_pay26 x0 x2) (k0_pay27 x0 x2) = tile (offs x0 2 slices_S250x16x3_o0_0_2_S250x16x1 slices_S250x16x3_o0_0_2_S250x1x1) (coefAt x2 0 2 0 slices_S2x3x4_o0_2_0_S1x1x1) (coefAt x2 1 2 0 slices_S2x3x4_o1_2_0_S1x1x1) (ownFeat x1) (featSum x1) := rfl

/-- Column 9's stored value is the tile of space axis 2 and filter 1. -/
theorem piece9 : k0_pay29 x2 (k0_pay2 x1) (k0_pay3 x1) (k0_pay24 x0) (k0_pay25 x0) = tile (offs x0 2 slices_S250x16x3_o0_0_2_S250x16x1 slices_S250x16x3_o0_0_2_S250x1x1) (coefAt x2 0 2 1 slices_S2x3x4_o0_2_1_S1x1x1) (coefAt x2 1 2 1 slices_S2x3x4_o1_2_1_S1x1x1) (ownFeat x1) (featSum x1) := rfl

/-- Column 10's stored value is the tile of space axis 2 and filter 2. -/
theorem piece10 : k0_pay30 x2 (k0_pay2 x1) (k0_pay3 x1) (k0_pay24 x0) (k0_pay25 x0) = tile (offs x0 2 slices_S250x16x3_o0_0_2_S250x16x1 slices_S250x16x3_o0_0_2_S250x1x1) (coefAt x2 0 2 2 slices_S2x3x4_o0_2_2_S1x1x1) (coefAt x2 1 2 2 slices_S2x3x4_o1_2_2_S1x1x1) (ownFeat x1) (featSum x1) := rfl

/-- Column 11's stored value is the tile of space axis 2 and filter 3. -/
theorem piece11 : k0_pay1 x2 (k0_pay2 x1) (k0_pay3 x1) (k0_pay24 x0) (k0_pay25 x0) = tile (offs x0 2 slices_S250x16x3_o0_0_2_S250x16x1 slices_S250x16x3_o0_0_2_S250x1x1) (coefAt x2 0 2 3 slices_S2x3x4_o0_2_3_S1x1x1) (coefAt x2 1 2 3 slices_S2x3x4_o1_2_3_S1x1x1) (ownFeat x1) (featSum x1) := rfl

/-! ## A tile through its rectangle -/

/-- The tile of `(s, j)`, read at a local index of the unit-width rectangle at lane offset `off = k`, is the block
    function at the rectangle's position: row and feature kept, lane `k`. -/
theorem tile_through (s j : Nat) (h1 : S250x16x3.Slices ![0, 0, s] S250x16x1) (h2 : S250x16x3.Slices ![0, 0, s] S250x1x1)
    (hc0 : S2x3x4.Slices ![0, s, j] S1x1x1) (hc1 : S2x3x4.Slices ![1, s, j] S1x1x1)
    (k : Fin 12) (hs : (axisOf k).val = s) (hj : (filtOf k).val = j) (off : Nat) (hoff : off = k.val)
    (inb : ∀ a, (![0, 0, off] : Fin 3 → Nat) a + S250x16x1.size a ≤ S250x16x12.size a)
    (x : (Rect.unit (s := S250x16x12) ![0, 0, off] S250x16x1.size inb).shape.Idx) :
    tile (offs x0 s h1 h2) (coefAt x2 0 s j hc0) (coefAt x2 1 s j hc1) (ownFeat x1) (featSum x1) x
      = blockFactored x0 x1 x2 ((Rect.unit (s := S250x16x12) ![0, 0, off] S250x16x1.size inb).emb x) := by
  obtain ⟨p, q, z, rfl⟩ : ∃ (p : Fin 250) (q : Fin 16) (z : Fin 1), x = ix3 p q z := ⟨x 0, x 1, x 2, eq_ix3 x⟩
  refine (tile_row x0 x1 x2 s j h1 h2 hc0 hc1 k hs hj p q z).trans ?_
  refine (blockFactored_of_val x0 x1 x2 _ p q k ?_ ?_ ?_).symm
  · show 0 + 1 * p.val = p.val; omega
  · show 0 + 1 * q.val = q.val; omega
  · show off + 1 * z.val = k.val; have := z.isLt; omega

/-! ## The twelve columns together -/

theorem zero_offsets : (![0, 0, 0] : Fin 3 → Nat) = fun _ => 0 := funext fun a => by fin_cases a <;> rfl

/-- THE OUTPUT BLOCK after the body, from the three input blocks, is the block function. -/
theorem block_eq (y : S250x16x12.Idx) : out0_3 x0 x1 x2 y = blockFactored x0 x1 x2 y := by
  unfold out0_3
  simp only [View.ld_unit_zero (S := S250x16x3) zero_offsets, View.ld_unit_zero (S := S250x16x16) zero_offsets,
    View.ld_unit_zero (S := S2x3x4) zero_offsets]
  refine View.canon_apply_of_pieces (Val := Elt Ideal) (S := S250x16x12) (e := .f32) (blockFactored x0 x1 x2) _ ?_ y
    (cover0_3 _ _ _ _ _ _ _ _ _ _ _ _ y)
  intro pc hpc
  simp only [List.mem_cons, List.mem_nil_iff, or_false] at hpc
  rcases hpc with rfl | rfl | rfl | rfl | rfl | rfl | rfl | rfl | rfl | rfl | rfl | rfl
  · intro x
    exact (congrFun (piece11 x0 x1 x2) x).trans
      (tile_through x0 x1 x2 2 3 _ _ _ _ 11 rfl rfl 11 rfl inb_S250x16x12_S250x16x1_0_0_11 x)
  · intro x
    exact (congrFun (piece10 x0 x1 x2) x).trans
      (tile_through x0 x1 x2 2 2 _ _ _ _ 10 rfl rfl 10 rfl inb_S250x16x12_S250x16x1_0_0_10 x)
  · intro x
    exact (congrFun (piece9 x0 x1 x2) x).trans
      (tile_through x0 x1 x2 2 1 _ _ _ _ 9 rfl rfl 9 rfl inb_S250x16x12_S250x16x1_0_0_9 x)
  · intro x
    exact (congrFun (piece8 x0 x1 x2) x).trans
      (tile_through x0 x1 x2 2 0 _ _ _ _ 8 rfl rfl 8 rfl inb_S250x16x12_S250x16x1_0_0_8 x)
  · intro x
    exact (congrFun (piece7 x0 x1 x2) x).trans
      (tile_through x0 x1 x2 1 3 _ _ _ _ 7 rfl rfl 7 rfl inb_S250x16x12_S250x16x1_0_0_7 x)
  · intro x
    exact (congrFun (piece6 x0 x1 x2) x).trans
      (tile_through x0 x1 x2 1 2 _ _ _ _ 6 rfl rfl 6 rfl inb_S250x16x12_S250x16x1_0_0_6 x)
  · intro x
    exact (congrFun (piece5 x0 x1 x2) x).trans
      (tile_through x0 x1 x2 1 1 _ _ _ _ 5 rfl rfl 5 rfl inb_S250x16x12_S250x16x1_0_0_5 x)
  · intro x
    exact (congrFun (piece4 x0 x1 x2) x).trans
      (tile_through x0 x1 x2 1 0 _ _ _ _ 4 rfl rfl 4 rfl inb_S250x16x12_S250x16x1_0_0_4 x)
  · intro x
    exact (congrFun (piece3 x0 x1 x2) x).trans
      (tile_through x0 x1 x2 0 3 _ _ _ _ 3 rfl rfl 3 rfl inb_S250x16x12_S250x16x1_0_0_3 x)
  · intro x
    exact (congrFun (piece2 x0 x1 x2) x).trans
      (tile_through x0 x1 x2 0 2 _ _ _ _ 2 rfl rfl 2 rfl inb_S250x16x12_S250x16x1_0_0_2 x)
  · intro x
    exact (congrFun (piece1 x0 x1 x2) x).trans
      (tile_through x0 x1 x2 0 1 _ _ _ _ 1 rfl rfl 1 rfl inb_S250x16x12_S250x16x1_0_0_1 x)
  · intro x
    exact (congrFun (piece0 x0 x1 x2) x).trans
      (tile_through x0 x1 x2 0 0 _ _ _ _ 0 rfl rfl 0 rfl inb_S250x16x12_S250x16x1_0_0_0 x)

end

end Cert.NeighbourFilter

end
-- ==== Proof.Array.lean ====
/-
  From the blocks to the array.

  The grid has 80 points. At point `t` the position, feature and output windows hold block `t` of their arrays — rows
  `250 t … 250 t + 249`, every neighbour, every lane — and the coefficient window holds the whole coefficient array. What
  point `t` writes back is the body's result on those blocks, which is the block function (`block_eq`); read at a row
  `p` of the block it is row `250 t + p` of `outFactored` of the argument arrays, because each block's entries are the
  arrays' entries at the shifted row. The 80 blocks of 250 rows cover the 20000 rows, so the array ends at `outFactored`
  of the arguments, which the run leaves unchanged.
-/
import proofs.«171861_j37091337568908_2_alg».proof.Proof.Gen.KernelIdeal.Value
import proofs.«171861_j37091337568908_2_alg».proof.Proof.Block
import proofs.«171861_j37091337568908_2_alg».proof.Proof.Pieces

set_option maxRecDepth 16384

noncomputable section

namespace Cert.NeighbourFilter

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: the position and feature windows move with the output window along the
    vertex axis, every other block index is zero, and the output's block number stays below 80. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (1 : Fin 3) = 0 ∧ win0_3.index t (2 : Fin 3) = 0 ∧ win0_3.index t (0 : Fin 3) ≤ 79 :=
  (by decide +kernel : ∀ t : Fin grid0.N, _)

/-- Every block of 250 rows is some point's. -/
theorem index_onto : ∀ q : Fin 80, ∃ t : Fin cfg0.N, win0_3.index t = ![q.val, 0, 0] :=
  (by decide +kernel : ∀ q : Fin 80, ∃ t : Fin grid0.N, win0_3.index t = ![q.val, 0, 0])

/-- WHAT POINT `t` WRITES BACK is block `t` of `outFactored` of the argument arrays as the region finds them. -/
theorem flushed_eq (c : Dev nD) (t : Fin cfg0.N) :
    (dats m 0 c).flushed 3 t = ((cfg0.win 3).blk t).view.read (Elt Ideal)
      (outFactored (V m c main_arg0) (V m c main_arg1) (V m c main_arg2)) := by
  rw [flushed3]
  obtain ⟨e00, e01, e02, e10, e11, e12, e20, e21, e22, e31, e32, e3b⟩ := index_facts t
  funext y
  show out0_3 (iblk m c 0 t) (iblk m c 1 t) (iblk m c 2 t) y
    = outFactored (V m c main_arg0) (V m c main_arg1) (V m c main_arg2) (((cfg0.win 3).blk t).view.emb y)
  refine (block_eq (iblk m c 0 t) (iblk m c 1 t) (iblk m c 2 t) y).trans ?_
  have hy0 : (y 0).val < 250 := (y 0).isLt
  have hy1 : (y 1).val < 16 := (y 1).isLt
  have hy2 : (y 2).val < 12 := (y 2).isLt
  have hv : win0_3.index t (0 : Fin 3) * 250 + (y 0).val < 20000 := by omega
  refine Eq.trans ?_ (outFactored_of_val (V m c main_arg0) (V m c main_arg1) (V m c main_arg2) _
    ⟨win0_3.index t (0 : Fin 3) * 250 + (y 0).val, hv⟩ ⟨(y 1).val, hy1⟩ ⟨(y 2).val, hy2⟩ ?_ ?_ ?_).symm
  · show rowFactored (posRow (R := 250) (iblk m c 0 t) ⟨(y 0).val, hy0⟩) (featRow (R := 250) (iblk m c 1 t) ⟨(y 0).val, hy0⟩)
        (coefOf (iblk m c 2 t)) ⟨(y 1).val, hy1⟩ ⟨(y 2).val, hy2⟩ = _
    have h0 : posRow (R := 250) (iblk m c 0 t) ⟨(y 0).val, hy0⟩
        = posRow (V m c main_arg0) ⟨win0_3.index t (0 : Fin 3) * 250 + (y 0).val, hv⟩ := by
      funext n s
      show V m c main_arg0 (((cfg0.win 0).blk t).view.emb (ix3 ⟨(y 0).val, hy0⟩ n s))
        = V m c main_arg0 (ix3 ⟨win0_3.index t (0 : Fin 3) * 250 + (y 0).val, hv⟩ n s)
      refine congrArg _ (funext fun a => Fin.ext ?_)
      match a with
      | ⟨0, _⟩ => show win0_0.index t (0 : Fin 3) * 250 + 1 * (y 0).val = win0_3.index t (0 : Fin 3) * 250 + (y 0).val; omega
      | ⟨1, _⟩ => show win0_0.index t (1 : Fin 3) * 16 + 1 * n.val = n.val; omega
      | ⟨2, _⟩ => show win0_0.index t (2 : Fin 3) * 3 + 1 * s.val = s.val; omega
    have h1 : featRow (R := 250) (iblk m c 1 t) ⟨(y 0).val, hy0⟩
        = featRow (V m c main_arg1) ⟨win0_3.index t (0 : Fin 3) * 250 + (y 0).val, hv⟩ := by
      funext n f
      show V m c main_arg1 (((cfg0.win 1).blk t).view.emb (ix3 ⟨(y 0).val, hy0⟩ n f))
        = V m c main_arg1 (ix3 ⟨win0_3.index t (0 : Fin 3) * 250 + (y 0).val, hv⟩ n f)
      refine congrArg _ (funext fun a => Fin.ext ?_)
      match a with
      | ⟨0, _⟩ => show win0_1.index t (0 : Fin 3) * 250 + 1 * (y 0).val = win0_3.index t (0 : Fin 3) * 250 + (y 0).val; omega
      | ⟨1, _⟩ => show win0_1.index t (1 : Fin 3) * 16 + 1 * n.val = n.val; omega
      | ⟨2, _⟩ => show win0_1.index t (2 : Fin 3) * 16 + 1 * f.val = f.val; omega
    have h2 : coefOf (iblk m c 2 t) = coefOf (V m c main_arg2) := by
      funext a s j
      show V m c main_arg2 (((cfg0.win 2).blk t).view.emb (ix3 a s j)) = V m c main_arg2 (ix3 a s j)
      refine congrArg _ (funext fun b => Fin.ext ?_)
      match b with
      | ⟨0, _⟩ => show win0_2.index t (0 : Fin 3) * 2 + 1 * a.val = a.val; omega
      | ⟨1, _⟩ => show win0_2.index t (1 : Fin 3) * 3 + 1 * s.val = s.val; omega
      | ⟨2, _⟩ => show win0_2.index t (2 : Fin 3) * 4 + 1 * j.val = j.val; omega
    rw [h0, h1, h2]
  · show win0_3.index t (0 : Fin 3) * 250 + 1 * (y 0).val = win0_3.index t (0 : Fin 3) * 250 + (y 0).val; omega
  · show win0_3.index t (1 : Fin 3) * 16 + 1 * (y 1).val = (y 1).val; omega
  · show win0_3.index t (2 : Fin 3) * 12 + 1 * (y 2).val = (y 2).val; omega

/-- An index of the array is in point `t`'s output block iff each coordinate is in the block's range on its axis. -/
theorem mem_block (t : Fin cfg0.N) (i : S20000x16x12.Idx) :
    i ∈ ((cfg0.win 3).blk t).view.set ↔ ∀ a : Fin 3, win0_3.index t a * S250x16x12.size a ≤ (i a).val
      ∧ (i a).val < win0_3.index t a * S250x16x12.size a + S250x16x12.size a := by
  show i ∈ ((View.whole main_v0).slice (win0_3.rect t)).set ↔ _
  rw [View.set_slice_whole, Rect.mem_set_unit]
  exact Iff.rfl

/-- The 80 blocks of 250 rows cover the array: row `r` is in the block of the point numbered `r / 250`. -/
theorem cover (i : S20000x16x12.Idx) :
    ∃ t : Fin cfg0.N, (cfg0.win 3).flush t = true ∧ i ∈ ((cfg0.win 3).blk t).view.set := by
  have hi0 : (i 0).val < 20000 := (i 0).isLt
  have hi1 : (i 1).val < 16 := (i 1).isLt
  have hi2 : (i 2).val < 12 := (i 2).isLt
  obtain ⟨t, ht⟩ := index_onto ⟨(i 0).val / 250, by omega⟩
  have q0 : win0_3.index t (0 : Fin 3) = (i 0).val / 250 := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 250 ≤ (i 0).val ∧ (i 0).val < win0_3.index t (0 : Fin 3) * 250 + 250; omega
  | ⟨1, _⟩ => show win0_3.index t (1 : Fin 3) * 16 ≤ (i 1).val ∧ (i 1).val < win0_3.index t (1 : Fin 3) * 16 + 16; omega
  | ⟨2, _⟩ => show win0_3.index t (2 : Fin 3) * 12 ≤ (i 2).val ∧ (i 2).val < win0_3.index t (2 : Fin 3) * 12 + 12; omega

/-- THE ARRAY after the run is `outFactored` of the argument arrays. -/
theorem final (c : Dev nD) : (dats m 0 c).arrAt 3 cfg0.N
    = outFactored (m ((c : Thread nD τ).loc main_arg0)) (m ((c : Thread nD τ).loc main_arg1)) (m ((c : Thread nD τ).loc main_arg2)) :=
  (dats m 0 c).arrAt_eq_of_cover 3 (outFactored (V m c main_arg0) (V m c main_arg1) (V m c main_arg2))
    (fun t _ => flushed_eq m c t) cover

/-- The kernel's run at the extended reals: the result array ends at `outFactored` of the arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = outFactored (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.NeighbourFilter

end
-- ==== Proof.Claims.lean ====
/-
  The certificate's five claims, assembled.

  Three of them say that a program runs to completion and leaves its argument arrays as it found them; each is the
  generated run of that program, the reference's with its statement about the result dropped. The fourth, that the
  idealized kernel is the kernel's sanctioned idealization, records no rewrite and is trivially true.

  The fifth is the comparison at the extended reals. From memories that agree on the three arguments and whose
  arguments pass the finiteness precondition:

  * the kernel's result array is the factored arrangement `outFactored` of its arguments (the kernel's run);
  * the reference's result array is the stage-by-stage term of its run, which is the summed arrangement `outSummed`
    of its arguments, and its arguments are the kernel's;
  * the precondition makes every entry of every argument a real number, and on real arrays the two arrangements are
    the same array: a real factor distributes over a finite sum of reals and a sum of differences of reals splits.

  So the witness of the common result is the factored arrangement of the kernel's arguments on each device.
-/
import proofs.«171861_j37091337568908_2_alg».proof.Defs
import proofs.«171861_j37091337568908_2_alg».proof.Proof.Gen.Kernel.Frame
import proofs.«171861_j37091337568908_2_alg».proof.Proof.Gen.KernelIdeal.Frame
import proofs.«171861_j37091337568908_2_alg».proof.Proof.Gen.ReferenceIdeal.Read
import proofs.«171861_j37091337568908_2_alg».proof.Proof.Gen.Pre_finite_inputs
import proofs.«171861_j37091337568908_2_alg».proof.Proof.RefSummed
import proofs.«171861_j37091337568908_2_alg».proof.Proof.Law
import proofs.«171861_j37091337568908_2_alg».proof.Proof.Finite
import proofs.«171861_j37091337568908_2_alg».proof.Proof.Array

noncomputable section

namespace Cert.NeighbourFilter

open Idealize.ShloMosaic Idealize.ShloMosaic.TcCoe Idealize.SL.Sem

/-! ## The three runs that keep their arguments, and the idealization's record -/

/-- The kernel as printed runs and keeps its arguments: its generated frame. -/
theorem frame_kernel : Cert.frame_Kernel (hKernel := Cert.Kernel.Gen.facts) (hPre_finite_inputs := Cert.Pre_finite_inputs.Gen.facts) :=
  fun m ρ _ => Cert.Kernel.Gen.frame m ρ

/-- The kernel at the extended reals runs and keeps its arguments: its generated frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference at the extended reals runs and keeps its arguments: its generated run, the statement about the
    result array dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation, so there is nothing to restate. -/
theorem preserves : Cert.preserves_Kernel_KernelIdeal := trivial

/-! ## The comparison at the extended reals -/

/-- At the extended reals, from memories that agree on the arguments and pass the finiteness precondition, the
    kernel's result array ends at the factored arrangement of its arguments and the reference's at the summed
    arrangement of the same arguments; the arguments being real, these are one array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => outFactored (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), kernel_run m ρ, ?_⟩
  refine (θ_run Cert.ReferenceIdeal.defs _ _).mono (fun _ h c => ⟨(h c).1.trans ?_, (h c).2⟩)
    (Cert.ReferenceIdeal.Value.run (F := Ideal) m' ρ')
  -- every entry of the kernel's three arguments is real
  obtain ⟨hX, hFe, hC⟩ := real_of_pre _ _ _ (hpre c)
  -- the reference's term is the summed arrangement of its own arguments, which are the kernel's
  rw [Cert.ReferenceIdeal.Read.val_main_v34_eq, ref_eq_outSummed, (hagree c).1, (hagree c).2.1, (hagree c).2.2]
  exact (outFactored_eq_outSummed _ _ _ hX hFe hC).symm

end Cert.NeighbourFilter

end
-- ==== Proof.lean ====
/-
  A neighbourhood filter on a graph of 20000 vertices: kernel and reference compute one function of real inputs.

  Every vertex has 16 neighbours (neighbour 0 the vertex itself) with a position on 3 space axes and 16 features; there
  are 2 x 3 x 4 learned coefficients. For space axis `s` and filter `j` neighbour `n` gets the weight
  `w n = exp (d * d * c)`, `d` its offset from the vertex on axis `s` and `c` the coefficient of `(s, j)` from the first bank
  when `0 ≤ d`, from the second otherwise. The result at vertex `v`, feature `f`, column `k = 4 s + j` is

      sum over n of (fe 0 f * w n - fe n f)                       -- as the reference computes it
    = fe 0 f * (sum over n of w n) - (sum over n of fe n f)       -- as the kernel computes it, block of 250 vertices by block.

  The kernel's twelve stored columns are read as that row function (Tile, Pieces), the blocks of the 80 grid points
  cover the array (Array), the reference's host operations compose to the summed form (RefSummed), and the two forms
  agree because the precondition makes every input entry a real number (Finite), so that every weight is a real and the
  factor distributes over the finite sum and the sum of differences splits (Law) — steps that fail at the infinities of
  the extended reals, which is where the precondition is used. The idealization rewrote nothing, so `preserves` is
  trivial, and the three frames are the generated ones (the reference's being its run with the result dropped).
-/
import proofs.«171861_j37091337568908_2_alg».proof.Defs
import proofs.«171861_j37091337568908_2_alg».proof.Proof.Gen.Kernel
import proofs.«171861_j37091337568908_2_alg».proof.Proof.Gen.KernelIdeal
import proofs.«171861_j37091337568908_2_alg».proof.Proof.Gen.ReferenceIdeal
import proofs.«171861_j37091337568908_2_alg».proof.Proof.Gen.Pre_finite_inputs
import proofs.«171861_j37091337568908_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.NeighbourFilter.frame_kernel, Cert.NeighbourFilter.frame_kernelIdeal, Cert.NeighbourFilter.frame_reference,
    Cert.NeighbourFilter.preserves, Cert.NeighbourFilter.algebraic⟩

end Cert.Proof

end
